-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2 : Shape := ⟨2, ![131072, 2]⟩
abbrev S_ : Shape := ⟨0, ![]⟩
abbrev S1024x2 : Shape := ⟨2, ![1024, 2]⟩
abbrev S1024 : Shape := ⟨1, ![1024]⟩
abbrev S1024x1024 : Shape := ⟨2, ![1024, 1024]⟩
abbrev S2x1024 : Shape := ⟨2, ![2, 1024]⟩
abbrev S2 : Shape := ⟨1, ![2]⟩
abbrev S2x2 : Shape := ⟨2, ![2, 2]⟩
abbrev S2x1 : Shape := ⟨2, ![2, 1]⟩

class Facts : Prop where
  bcast_S_S131072x2 : S_.BroadcastsInDim S131072x2 (![] : Fin 0 → Fin S131072x2.rank)
  reducesTo_S131072x2_S_d0_1 : S131072x2.ReducesTo [0, 1] S_
  h_S_ : 0 < S_.numel
  reducesTo_S_S_d : S_.ReducesTo [] S_
  bcast_S_S1024x2 : S_.BroadcastsInDim S1024x2 (![] : Fin 0 → Fin S1024x2.rank)
  reducesTo_S1024x2_S_d0_1 : S1024x2.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S2 : S_.BroadcastsInDim S2 (![] : Fin 0 → Fin S2.rank)
  reducesTo_S2_S_d0 : S2.ReducesTo [0] S_
  bcast_S_S2x2 : S_.BroadcastsInDim S2x2 (![] : Fin 0 → Fin S2x2.rank)
  reducesTo_S2x2_S_d0_1 : S2x2.ReducesTo [0, 1] S_
  bcast_S_S2x1 : S_.BroadcastsInDim S2x1 (![] : Fin 0 → Fin S2x1.rank)
  reducesTo_S2x1_S_d0_1 : S2x1.ReducesTo [0, 1] S_

variable [Facts]

def fn_part3 {F : FTy → Type} [FloatOps F] (main_arg11 : FVec F S2x1 .f32) (main_v46 : IVec S_ 1) (main_v49 : IVec S2x1 1) (main_c_19 : IVec S_ 1) : IVec S_ 1 :=
  let main_v50 : IVec S_ 1 := (fun x v => Host.reduce IntOp.andi x v reducesTo_S2x1_S_d0_1 h_S_) main_v49 main_c_19
  let main_v51 : IVec S_ 1 := andi main_v46 main_v50
  let main_v52 : FVec F S2x1 .f32 := Host.absf main_arg11
  let main_cst_20 : FVec F S_ .f32 := constant S_ .f32 0x7F800000#32
  let main_v53 : FVec F S2x1 .f32 := broadcastInDim S2x1 ![] bcast_S_S2x1 main_cst_20
  let main_v54 : IVec S2x1 1 := cmpf .olt main_v52 main_v53
  let main_c_21 : IVec S_ 1 := constantI S_ 1 1#1
  let main_v55 : IVec S_ 1 := (fun x v => Host.reduce IntOp.andi x v reducesTo_S2x1_S_d0_1 h_S_) main_v54 main_c_21
  let main_v56 : IVec S_ 1 := andi main_v51 main_v55
  main_v56

def fn_part2 {F : FTy → Type} [FloatOps F] (main_arg8 : FVec F S2 .f32) (main_arg9 : FVec F S2x2 .f32) (main_arg10 : FVec F S2x1 .f32) (main_arg11 : FVec F S2x1 .f32) (main_v31 : IVec S_ 1) (main_v32 : FVec F S2x1024 .f32) (main_cst_12 : FVec F S_ .f32) : IVec S_ 1 :=
  let main_v33 : FVec F S2x1024 .f32 := broadcastInDim S2x1024 ![] bcast_S_S2x1024 main_cst_12
  let main_v34 : IVec S2x1024 1 := cmpf .olt main_v32 main_v33
  let main_c_13 : IVec S_ 1 := constantI S_ 1 1#1
  let main_v35 : IVec S_ 1 := (fun x v => Host.reduce IntOp.andi x v reducesTo_S2x1024_S_d0_1 h_S_) main_v34 main_c_13
  let main_v36 : IVec S_ 1 := andi main_v31 main_v35
  let main_v37 : FVec F S2 .f32 := Host.absf main_arg8
  let main_cst_14 : FVec F S_ .f32 := constant S_ .f32 0x7F800000#32
  let main_v38 : FVec F S2 .f32 := broadcastInDim S2 ![] bcast_S_S2 main_cst_14
  let main_v39 : IVec S2 1 := cmpf .olt main_v37 main_v38
  let main_c_15 : IVec S_ 1 := constantI S_ 1 1#1
  let main_v40 : IVec S_ 1 := (fun x v => Host.reduce IntOp.andi x v reducesTo_S2_S_d0 h_S_) main_v39 main_c_15
  let main_v41 : IVec S_ 1 := andi main_v36 main_v40
  let main_v42 : FVec F S2x2 .f32 := Host.absf main_arg9
  let main_cst_16 : FVec F S_ .f32 := constant S_ .f32 0x7F800000#32
  let main_v43 : FVec F S2x2 .f32 := broadcastInDim S2x2 ![] bcast_S_S2x2 main_cst_16
  let main_v44 : IVec S2x2 1 := cmpf .olt main_v42 main_v43
  let main_c_17 : IVec S_ 1 := constantI S_ 1 1#1
  let main_v45 : IVec S_ 1 := (fun x v => Host.reduce IntOp.andi x v reducesTo_S2x2_S_d0_1 h_S_) main_v44 main_c_17
  let main_v46 : IVec S_ 1 := andi main_v41 main_v45
  let main_v47 : FVec F S2x1 .f32 := Host.absf main_arg10
  let main_cst_18 : FVec F S_ .f32 := constant S_ .f32 0x7F800000#32
  let main_v48 : FVec F S2x1 .f32 := broadcastInDim S2x1 ![] bcast_S_S2x1 main_cst_18
  let main_v49 : IVec S2x1 1 := cmpf .olt main_v47 main_v48
  let main_c_19 : IVec S_ 1 := constantI S_ 1 1#1
  fn_part3 (F := F) main_arg11 main_v46 main_v49 main_c_19

def fn_part1 {F : FTy → Type} [FloatOps F] (main_arg4 : FVec F S1024 .f32) (main_arg5 : FVec F S1024x1024 .f32) (main_arg6 : FVec F S1024 .f32) (main_arg7 : FVec F S2x1024 .f32) (main_arg8 : FVec F S2 .f32) (main_arg9 : FVec F S2x2 .f32) (main_arg10 : FVec F S2x1 .f32) (main_arg11 : FVec F S2x1 .f32) (main_v11 : IVec S_ 1) (main_v15 : IVec S_ 1) : IVec S_ 1 :=
  let main_v16 : IVec S_ 1 := andi main_v11 main_v15
  let main_v17 : FVec F S1024 .f32 := Host.absf main_arg4
  let main_cst_6 : FVec F S_ .f32 := constant S_ .f32 0x7F800000#32
  let main_v18 : FVec F S1024 .f32 := broadcastInDim S1024 ![] bcast_S_S1024 main_cst_6
  let main_v19 : IVec S1024 1 := cmpf .olt main_v17 main_v18
  let main_c_7 : IVec S_ 1 := constantI S_ 1 1#1
  let main_v20 : IVec S_ 1 := (fun x v => Host.reduce IntOp.andi x v reducesTo_S1024_S_d0 h_S_) main_v19 main_c_7
  let main_v21 : IVec S_ 1 := andi main_v16 main_v20
  let main_v22 : FVec F S1024x1024 .f32 := Host.absf main_arg5
  let main_cst_8 : FVec F S_ .f32 := constant S_ .f32 0x7F800000#32
  let main_v23 : FVec F S1024x1024 .f32 := broadcastInDim S1024x1024 ![] bcast_S_S1024x1024 main_cst_8
  let main_v24 : IVec S1024x1024 1 := cmpf .olt main_v22 main_v23
  let main_c_9 : IVec S_ 1 := constantI S_ 1 1#1
  let main_v25 : IVec S_ 1 := (fun x v => Host.reduce IntOp.andi x v reducesTo_S1024x1024_S_d0_1 h_S_) main_v24 main_c_9
  let main_v26 : IVec S_ 1 := andi main_v21 main_v25
  let main_v27 : FVec F S1024 .f32 := Host.absf main_arg6
  let main_cst_10 : FVec F S_ .f32 := constant S_ .f32 0x7F800000#32
  let main_v28 : FVec F S1024 .f32 := broadcastInDim S1024 ![] bcast_S_S1024 main_cst_10
  let main_v29 : IVec S1024 1 := cmpf .olt main_v27 main_v28
  let main_c_11 : IVec S_ 1 := constantI S_ 1 1#1
  let main_v30 : IVec S_ 1 := (fun x v => Host.reduce IntOp.andi x v reducesTo_S1024_S_d0 h_S_) main_v29 main_c_11
  let main_v31 : IVec S_ 1 := andi main_v26 main_v30
  let main_v32 : FVec F S2x1024 .f32 := Host.absf main_arg7
  let main_cst_12 : FVec F S_ .f32 := constant S_ .f32 0x7F800000#32
  fn_part2 (F := F) main_arg8 main_arg9 main_arg10 main_arg11 main_v31 main_v32 main_cst_12

def fn {F : FTy → Type} [FloatOps F] (main_arg0 : FVec F S131072x2 .f32) (main_arg1 : FVec F S_ .f32) (main_arg2 : FVec F S_ .f32) (main_arg3 : FVec F S1024x2 .f32) (main_arg4 : FVec F S1024 .f32) (main_arg5 : FVec F S1024x1024 .f32) (main_arg6 : FVec F S1024 .f32) (main_arg7 : FVec F S2x1024 .f32) (main_arg8 : FVec F S2 .f32) (main_arg9 : FVec F S2x2 .f32) (main_arg10 : FVec F S2x1 .f32) (main_arg11 : FVec F S2x1 .f32) : IVec S_ 1 :=
  let main_v0 : FVec F S131072x2 .f32 := Host.absf main_arg0
  let main_cst : FVec F S_ .f32 := constant S_ .f32 0x7F800000#32
  let main_v1 : FVec F S131072x2 .f32 := broadcastInDim S131072x2 ![] bcast_S_S131072x2 main_cst
  let main_v2 : IVec S131072x2 1 := cmpf .olt main_v0 main_v1
  let main_c : IVec S_ 1 := constantI S_ 1 1#1
  let main_v3 : IVec S_ 1 := (fun x v => Host.reduce IntOp.andi x v reducesTo_S131072x2_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S_ .f32 := Host.absf main_arg2
  let main_cst_2 : FVec F S_ .f32 := constant S_ .f32 0x7F800000#32
  let main_v9 : IVec S_ 1 := cmpf .olt main_v8 main_cst_2
  let main_c_3 : IVec S_ 1 := constantI S_ 1 1#1
  let main_v10 : IVec S_ 1 := (fun x v => Host.reduce IntOp.andi x v reducesTo_S_S_d h_S_) main_v9 main_c_3
  let main_v11 : IVec S_ 1 := andi main_v7 main_v10
  let main_v12 : FVec F S1024x2 .f32 := Host.absf main_arg3
  let main_cst_4 : FVec F S_ .f32 := constant S_ .f32 0x7F800000#32
  let main_v13 : FVec F S1024x2 .f32 := broadcastInDim S1024x2 ![] bcast_S_S1024x2 main_cst_4
  let main_v14 : IVec S1024x2 1 := cmpf .olt main_v12 main_v13
  let main_c_5 : IVec S_ 1 := constantI S_ 1 1#1
  let main_v15 : IVec S_ 1 := (fun x v => Host.reduce IntOp.andi x v reducesTo_S1024x2_S_d0_1 h_S_) main_v14 main_c_5
  fn_part1 (F := F) main_arg4 main_arg5 main_arg6 main_arg7 main_arg8 main_arg9 main_arg10 main_arg11 main_v11 main_v15
-- ==== Kernel.lean ====
abbrev S131072x2 : Shape := ⟨2, ![131072, 2]⟩
abbrev S_ : Shape := ⟨0, ![]⟩
abbrev S1024x2 : Shape := ⟨2, ![1024, 2]⟩
abbrev S1024 : Shape := ⟨1, ![1024]⟩
abbrev S1024x1024 : Shape := ⟨2, ![1024, 1024]⟩
abbrev S2x1024 : Shape := ⟨2, ![2, 1024]⟩
abbrev S2 : Shape := ⟨1, ![2]⟩
abbrev S2x2 : Shape := ⟨2, ![2, 2]⟩
abbrev S2x1 : Shape := ⟨2, ![2, 1]⟩
abbrev S1 : Shape := ⟨1, ![1]⟩
abbrev S1x2 : Shape := ⟨2, ![1, 2]⟩
abbrev S4 : Shape := ⟨1, ![4]⟩
abbrev S6 : Shape := ⟨1, ![6]⟩
abbrev S1x6 : Shape := ⟨2, ![1, 6]⟩
abbrev S1x1024 : Shape := ⟨2, ![1, 1024]⟩
abbrev S1x1 : Shape := ⟨2, ![1, 1]⟩
abbrev S1024x1 : Shape := ⟨2, ![1024, 1]⟩

abbrev nBuf : Space → Nat
  | .hbm => 43
  | .vmem => 11
  | .smem => 0
  | _ => 0

abbrev bufTy : (tb : Table) → Fin (tcTables nBuf tb) → BufTy
  | .hbm, ⟨0, _⟩ => ⟨S131072x2, .f32⟩
  | .hbm, ⟨1, _⟩ => ⟨S_, .f32⟩
  | .hbm, ⟨2, _⟩ => ⟨S_, .f32⟩
  | .hbm, ⟨3, _⟩ => ⟨S1024x2, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S2x1024, .f32⟩
  | .hbm, ⟨8, _⟩ => ⟨S2, .f32⟩
  | .hbm, ⟨9, _⟩ => ⟨S2x2, .f32⟩
  | .hbm, ⟨10, _⟩ => ⟨S2x1, .f32⟩
  | .hbm, ⟨11, _⟩ => ⟨S2x1, .f32⟩
  | .hbm, ⟨12, _⟩ => ⟨S_, .f32⟩
  | .hbm, ⟨13, _⟩ => ⟨S_, .f32⟩
  | .hbm, ⟨14, _⟩ => ⟨S1, .f32⟩
  | .hbm, ⟨15, _⟩ => ⟨S1, .f32⟩
  | .hbm, ⟨16, _⟩ => ⟨S2, .f32⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S2, .f32⟩
  | .hbm, ⟨21, _⟩ => ⟨S1x2, .f32⟩
  | .hbm, ⟨22, _⟩ => ⟨S1x2, .f32⟩
  | .hbm, ⟨23, _⟩ => ⟨S2x2, .f32⟩
  | .hbm, ⟨24, _⟩ => ⟨S2x2, .f32⟩
  | .hbm, ⟨25, _⟩ => ⟨S2, .f32⟩
  | .hbm, ⟨26, _⟩ => ⟨S2x1, .f32⟩
  | .hbm, ⟨27, _⟩ => ⟨S2x2, .f32⟩
  | .hbm, ⟨28, _⟩ => ⟨S2x2, .f32⟩
  | .hbm, ⟨29, _⟩ => ⟨S2, .f32⟩
  | .hbm, ⟨30, _⟩ => ⟨S2, .f32⟩
  | .hbm, ⟨31, _⟩ => ⟨S2, .f32⟩
  | .hbm, ⟨32, _⟩ => ⟨S2, .f32⟩
  | .hbm, ⟨33, _⟩ => ⟨S4, .f32⟩
  | .hbm, ⟨34, _⟩ => ⟨S6, .f32⟩
  | .hbm, ⟨35, _⟩ => ⟨S1x6, .f32⟩
  | .hbm, ⟨36, _⟩ => ⟨S2x1024, .f32⟩
  | .hbm, ⟨37, _⟩ => ⟨S2x1024, .bf16⟩
  | .hbm, ⟨38, _⟩ => ⟨S1024x1024, .f32⟩
  | .hbm, ⟨39, _⟩ => ⟨S1024x1024, .bf16⟩
  | .hbm, ⟨40, _⟩ => ⟨S1024x2, .f32⟩
  | .hbm, ⟨41, _⟩ => ⟨S1024x2, .bf16⟩
  | .hbm, ⟨42, _⟩ => ⟨S131072x2, .f32⟩
  | .local _ .vmem, ⟨0, _⟩ => ⟨S1024x2, .f32⟩
  | .local _ .vmem, ⟨1, _⟩ => ⟨S1024x2, .f32⟩
  | .local _ .vmem, ⟨2, _⟩ => ⟨S2x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x2, .bf16⟩
  | .local _ .vmem, ⟨7, _⟩ => ⟨S2, .f32⟩
  | .local _ .vmem, ⟨8, _⟩ => ⟨S1x6, .f32⟩
  | .local _ .vmem, ⟨9, _⟩ => ⟨S1024x2, .f32⟩
  | .local _ .vmem, ⟨10, _⟩ => ⟨S1024x2, .f32⟩
  | _, _ => ⟨S131072x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S1 : S_.BroadcastsInDim S1 (![] : Fin 0 → Fin S1.rank)
  concatenates_S1_S1_S2_d0 : Shape.Concatenates [S1, S1] S2 0
  bcast_S2_S1x2_1 : S2.BroadcastsInDim S1x2 (![1] : Fin 1 → Fin S1x2.rank)
  concatenates_S1x2_S1x2_S2x2_d0 : Shape.Concatenates [S1x2, S1x2] S2x2 0
  shapeCasts_S2x1_S2 : S2x1.ShapeCasts S2
  bcast_S2_S2x1_0 : S2.BroadcastsInDim S2x1 (![0] : Fin 1 → Fin S2x1.rank)
  bcast_S2x1_S2x2_0_1 : S2x1.BroadcastsInDim S2x2 (![0, 1] : Fin 2 → Fin S2x2.rank)
  bcast_S_S2 : S_.BroadcastsInDim S2 (![] : Fin 0 → Fin S2.rank)
  shapeCasts_S2x2_S4 : S2x2.ShapeCasts S4
  concatenates_S4_S2_S6_d0 : Shape.Concatenates [S4, S2] S6 0
  shapeCasts_S6_S1x6 : S6.ShapeCasts S1x6
  transposes_S1024x2_S2x1024_1_0 : S1024x2.Transposes [1, 0] S2x1024
  bitsLt_bf16_f32 : FTy.bits .bf16 < FTy.bits .f32
  transposes_S1024x1024_S1024x1024_1_0 : S1024x1024.Transposes [1, 0] S1024x1024
  transposes_S2x1024_S1024x2_1_0 : S2x1024.Transposes [1, 0] S1024x2
  inb_S1024x2_S1024x2_0_0 : ∀ a, (![0, 0] : Fin 2 → Nat) a + S1024x2.size a ≤ S1024x2.size a
  h_S1024x2 : 0 < S1024x2.numel
  inb_S2x1024_S2x1024_0_0 : ∀ a, (![0, 0] : Fin 2 → Nat) a + S2x1024.size a ≤ S2x1024.size a
  h_S2x1024 : 0 < S2x1024.numel
  shapeCasts_S2x1024_S2x1024 : S2x1024.ShapeCasts S2x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x2_S1024x2 : S1024x2.ShapeCasts S1024x2
  inb_S2_S2_0 : ∀ a, (![0] : Fin 1 → Nat) a + S2.size a ≤ S2.size a
  h_S2 : 0 < S2.numel
  shapeCasts_S2_S1x2 : S2.ShapeCasts S1x2
  broadcasts_S1x2_S1024x2 : S1x2.Broadcasts S1024x2
  inb_S1x6_S1x1_0_0 : ∀ a, (![0, 0] : Fin 2 → Nat) a + S1x1.size a ≤ S1x6.size a
  h_S1x1 : 0 < S1x1.numel
  inpos_S1x1_p0_0 : ∀ a, (![0, 0] : Fin 2 → Nat) a < S1x1.size a
  inb_S1x6_S1x1_0_1 : ∀ a, (![0, 1] : Fin 2 → Nat) a + S1x1.size a ≤ S1x6.size a
  inb_S1x6_S1x1_0_2 : ∀ a, (![0, 2] : Fin 2 → Nat) a + S1x1.size a ≤ S1x6.size a
  inb_S1x6_S1x1_0_3 : ∀ a, (![0, 3] : Fin 2 → Nat) a + S1x1.size a ≤ S1x6.size a
  inb_S1x6_S1x1_0_4 : ∀ a, (![0, 4] : Fin 2 → Nat) a + S1x1.size a ≤ S1x6.size a
  inb_S1x6_S1x1_0_5 : ∀ a, (![0, 5] : Fin 2 → Nat) a + S1x1.size a ≤ S1x6.size a
  slices_S1024x2_o0_0_S1024x1 : S1024x2.Slices ![0, 0] S1024x1
  slices_S1024x2_o0_1_S1024x1 : S1024x2.Slices ![0, 1] S1024x1
  concatenates_S1024x1_S1024x1_S1024x2_d1 : Shape.Concatenates [S1024x1, S1024x1] S1024x2 1
  dot_S1024x2_S2x1024_S1024x1024_1_0_0_1_n_n_wf : DotDims.WF S1024x2 S2x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x2_S1024x2_1_0_0_1_n_n_wf : DotDims.WF S1024x1024 S1024x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S131072x2.size a
  hwx0_0 : ∀ i : grid0.Coords, EltTy.bits .f32 = 32 ∨ (Rect.block (s := S131072x2) S1024x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x1024.size a ≤ S2x1024.size a
  hwx0_1 : ∀ i : grid0.Coords, EltTy.bits .bf16 = 32 ∨ (Rect.block (s := S2x1024) S2x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2.size a ≤ S1024x2.size a
  hwx0_5 : ∀ i : grid0.Coords, EltTy.bits .bf16 = 32 ∨ (Rect.block (s := S1024x2) S1024x2.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2.size a ≤ S2.size a
  hwx0_6 : ∀ i : grid0.Coords, EltTy.bits .f32 = 32 ∨ (Rect.block (s := S2) S2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x6.size a ≤ S1x6.size a
  hwx0_7 : ∀ i : grid0.Coords, EltTy.bits .f32 = 32 ∨ (Rect.block (s := S1x6) S1x6.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x2.size a ≤ S131072x2.size a
  hwx0_8 : ∀ i : grid0.Coords, EltTy.bits .f32 = 32 ∨ (Rect.block (s := S131072x2) S1024x2.size (cc0_transform_8 i) (hinb0_8 i)).WholeWords (EltTy.packing .f32)

variable [Facts₀]

def dot_S1024x2_S2x1024_S1024x1024_1_0_0_1_n_n : DotDims S1024x2 S2x1024 S1024x1024 where
  lhsContracting := [1]
  rhsContracting := [0]
  lhsNonContracting := [0]
  rhsNonContracting := [1]
  lhsBatch := []
  rhsBatch := []
  wf := dot_S1024x2_S2x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x2_S1024x2_1_0_0_1_n_n : DotDims S1024x1024 S1024x2 S1024x2 where
  lhsContracting := [1]
  rhsContracting := [0]
  lhsNonContracting := [0]
  rhsNonContracting := [1]
  lhsBatch := []
  rhsBatch := []
  wf := dot_S1024x1024_S1024x2_S1024x2_1_0_0_1_n_n_wf

abbrev win0_0 : Pipeline.Window sig grid0 :=
  Pipeline.Window.ofSpec (Memref.whole main_arg0) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S2x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1024x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x6.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1024x2.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x2 : Shape := ⟨2, ![131072, 2]⟩
abbrev S_ : Shape := ⟨0, ![]⟩
abbrev S1024x2 : Shape := ⟨2, ![1024, 2]⟩
abbrev S1024 : Shape := ⟨1, ![1024]⟩
abbrev S1024x1024 : Shape := ⟨2, ![1024, 1024]⟩
abbrev S2x1024 : Shape := ⟨2, ![2, 1024]⟩
abbrev S2 : Shape := ⟨1, ![2]⟩
abbrev S2x2 : Shape := ⟨2, ![2, 2]⟩
abbrev S2x1 : Shape := ⟨2, ![2, 1]⟩
abbrev S131072x1024 : Shape := ⟨2, ![131072, 1024]⟩
abbrev S1x1024 : Shape := ⟨2, ![1, 1024]⟩
abbrev S1x2 : Shape := ⟨2, ![1, 2]⟩
abbrev S2x131072 : Shape := ⟨2, ![2, 131072]⟩
abbrev S1 : Shape := ⟨1, ![1]⟩

abbrev nBuf : Space → Nat
  | .hbm => 55
  | .vmem => 0
  | .smem => 0
  | _ => 0

abbrev bufTy : (tb : Table) → Fin (tcTables nBuf tb) → BufTy
  | .hbm, ⟨0, _⟩ => ⟨S131072x2, .f32⟩
  | .hbm, ⟨1, _⟩ => ⟨S_, .f32⟩
  | .hbm, ⟨2, _⟩ => ⟨S_, .f32⟩
  | .hbm, ⟨3, _⟩ => ⟨S1024x2, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S2x1024, .f32⟩
  | .hbm, ⟨8, _⟩ => ⟨S2, .f32⟩
  | .hbm, ⟨9, _⟩ => ⟨S2x2, .f32⟩
  | .hbm, ⟨10, _⟩ => ⟨S2x1, .f32⟩
  | .hbm, ⟨11, _⟩ => ⟨S2x1, .f32⟩
  | .hbm, ⟨12, _⟩ => ⟨S2x1024, .f32⟩
  | .hbm, ⟨13, _⟩ => ⟨S131072x1024, .f32⟩
  | .hbm, ⟨14, _⟩ => ⟨S1x1024, .f32⟩
  | .hbm, ⟨15, _⟩ => ⟨S131072x1024, .f32⟩
  | .hbm, ⟨16, _⟩ => ⟨S131072x1024, .f32⟩
  | .hbm, ⟨17, _⟩ => ⟨S_, .f32⟩
  | .hbm, ⟨18, _⟩ => ⟨S131072x1024, .f32⟩
  | .hbm, ⟨19, _⟩ => ⟨S131072x1024, .f32⟩
  | .hbm, ⟨20, _⟩ => ⟨S1024x1024, .f32⟩
  | .hbm, ⟨21, _⟩ => ⟨S131072x1024, .f32⟩
  | .hbm, ⟨22, _⟩ => ⟨S1x1024, .f32⟩
  | .hbm, ⟨23, _⟩ => ⟨S131072x1024, .f32⟩
  | .hbm, ⟨24, _⟩ => ⟨S131072x1024, .f32⟩
  | .hbm, ⟨25, _⟩ => ⟨S_, .f32⟩
  | .hbm, ⟨26, _⟩ => ⟨S131072x1024, .f32⟩
  | .hbm, ⟨27, _⟩ => ⟨S131072x1024, .f32⟩
  | .hbm, ⟨28, _⟩ => ⟨S1024x2, .f32⟩
  | .hbm, ⟨29, _⟩ => ⟨S131072x2, .f32⟩
  | .hbm, ⟨30, _⟩ => ⟨S1x2, .f32⟩
  | .hbm, ⟨31, _⟩ => ⟨S131072x2, .f32⟩
  | .hbm, ⟨32, _⟩ => ⟨S131072x2, .f32⟩
  | .hbm, ⟨33, _⟩ => ⟨S2x131072, .f32⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S2, .f32⟩
  | .hbm, ⟨39, _⟩ => ⟨S_, .f32⟩
  | .hbm, ⟨40, _⟩ => ⟨S1, .f32⟩
  | .hbm, ⟨41, _⟩ => ⟨S1, .f32⟩
  | .hbm, ⟨42, _⟩ => ⟨S2, .f32⟩
  | .hbm, ⟨43, _⟩ => ⟨S1x2, .f32⟩
  | .hbm, ⟨44, _⟩ => ⟨S1x2, .f32⟩
  | .hbm, ⟨45, _⟩ => ⟨S2x2, .f32⟩
  | .hbm, ⟨46, _⟩ => ⟨S2x2, .f32⟩
  | .hbm, ⟨47, _⟩ => ⟨S2x131072, .f32⟩
  | .hbm, ⟨48, _⟩ => ⟨S2x1, .f32⟩
  | .hbm, ⟨49, _⟩ => ⟨S2x1, .f32⟩
  | .hbm, ⟨50, _⟩ => ⟨S2x131072, .f32⟩
  | .hbm, ⟨51, _⟩ => ⟨S2x131072, .f32⟩
  | .hbm, ⟨52, _⟩ => ⟨S2x131072, .f32⟩
  | .hbm, ⟨53, _⟩ => ⟨S2x131072, .f32⟩
  | .hbm, ⟨54, _⟩ => ⟨S131072x2, .f32⟩
  | _, _ => ⟨S131072x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  transposes_S1024x2_S2x1024_1_0 : S1024x2.Transposes [1, 0] S2x1024
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  bcast_S_S131072x1024 : S_.BroadcastsInDim S131072x1024 (![] : Fin 0 → Fin S131072x1024.rank)
  transposes_S1024x1024_S1024x1024_1_0 : S1024x1024.Transposes [1, 0] S1024x1024
  transposes_S2x1024_S1024x2_1_0 : S2x1024.Transposes [1, 0] S1024x2
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  transposes_S131072x2_S2x131072_1_0 : S131072x2.Transposes [1, 0] S2x131072
  bcast_S_S1 : S_.BroadcastsInDim S1 (![] : Fin 0 → Fin S1.rank)
  concatenates_S1_S1_S2_d0 : Shape.Concatenates [S1, S1] S2 0
  concatenates_S1x2_S1x2_S2x2_d0 : Shape.Concatenates [S1x2, S1x2] S2x2 0
  bcast_S_S2x1 : S_.BroadcastsInDim S2x1 (![] : Fin 0 → Fin S2x1.rank)
  bcast_S2x1_S2x131072_0_1 : S2x1.BroadcastsInDim S2x131072 (![0, 1] : Fin 2 → Fin S2x131072.rank)
  transposes_S2x131072_S131072x2_1_0 : S2x131072.Transposes [1, 0] S131072x2
  dot_S131072x2_S2x1024_S131072x1024_1_0_0_1_n_n_wf : DotDims.WF S131072x2 S2x1024 S131072x1024 [1] [0] [0] [1] [] []
  dot_S131072x1024_S1024x1024_S131072x1024_1_0_0_1_n_n_wf : DotDims.WF S131072x1024 S1024x1024 S131072x1024 [1] [0] [0] [1] [] []
  dot_S131072x1024_S1024x2_S131072x2_1_0_0_1_n_n_wf : DotDims.WF S131072x1024 S1024x2 S131072x2 [1] [0] [0] [1] [] []
  dot_S2x2_S2x131072_S2x131072_1_0_0_1_n_n_wf : DotDims.WF S2x2 S2x131072 S2x131072 [1] [0] [0] [1] [] []

variable [Facts₀]

def dot_S131072x2_S2x1024_S131072x1024_1_0_0_1_n_n : DotDims S131072x2 S2x1024 S131072x1024 where
  lhsContracting := [1]
  rhsContracting := [0]
  lhsNonContracting := [0]
  rhsNonContracting := [1]
  lhsBatch := []
  rhsBatch := []
  wf := dot_S131072x2_S2x1024_S131072x1024_1_0_0_1_n_n_wf
def dot_S131072x1024_S1024x1024_S131072x1024_1_0_0_1_n_n : DotDims S131072x1024 S1024x1024 S131072x1024 where
  lhsContracting := [1]
  rhsContracting := [0]
  lhsNonContracting := [0]
  rhsNonContracting := [1]
  lhsBatch := []
  rhsBatch := []
  wf := dot_S131072x1024_S1024x1024_S131072x1024_1_0_0_1_n_n_wf
def dot_S131072x1024_S1024x2_S131072x2_1_0_0_1_n_n : DotDims S131072x1024 S1024x2 S131072x2 where
  lhsContracting := [1]
  rhsContracting := [0]
  lhsNonContracting := [0]
  rhsNonContracting := [1]
  lhsBatch := []
  rhsBatch := []
  wf := dot_S131072x1024_S1024x2_S131072x2_1_0_0_1_n_n_wf
def dot_S2x2_S2x131072_S2x131072_1_0_0_1_n_n : DotDims S2x2 S2x131072 S2x131072 where
  lhsContracting := [1]
  rhsContracting := [0]
  lhsNonContracting := [0]
  rhsNonContracting := [1]
  lhsBatch := []
  rhsBatch := []
  wf := dot_S2x2_S2x131072_S2x131072_1_0_0_1_n_n_wf

class Facts : Prop extends Facts₀ where

variable [Facts]
-- ==== Proof.Spec.lean ====
/-
  The mathematics of the two programs, with no program in sight.

  A row `y` of two numbers goes through three dense layers (2 → 1024 → 1024 → 2, a rectified linear unit after the
  first two); the two results `g 0`, `g 1` are then mixed by the 2 × 2 matrix `A = J − R`, where `J` is the
  skew matrix `[[0, −μ], [μ, 0]]` of a scalar `μ`, shifted by `B · u` for a scalar `u`, and scaled row by row by `s`:

      reference:  ((A i 0 · g 0 + A i 1 · g 1) + B i · u) · s i
      kernel:      (g 0 · (A i 0 · s i) + g 1 · (A i 1 · s i)) + (B i · u) · s i

  The two differ by distributing `s i` over the sum and by the order of the factors.  Over the extended reals the
  product does not distribute over sums at the infinities, so the law is proved for REAL entries only
  (`IsReal`), which is what finite inputs give: every quantity here is a polynomial (with maxima) in the inputs.
-/
import Idealize.ShloMosaic.Lib.ValueIdx
import Idealize.ShloMosaic.PureOps.Ideal.Laws

noncomputable section

namespace Cert.Spec

open Idealize.ShloMosaic

/-- The zero both programs print (the word `0x00000000`). -/
abbrev zero : EReal := Ideal.ofBits .f32 0x00000000#32

theorem zero_eq : zero = 0 := Ideal.ofBits_zero_f32

/-- One dense layer on a row: `out n = (∑ k, x k · W n k) + b n`. -/
def dense {K N : ℕ} (x : Fin K → EReal) (W : Fin N → Fin K → EReal) (b : Fin N → EReal) (n : Fin N) : EReal :=
  (∑ k : Fin K, x k * W n k) + b n

/-- The rectified linear unit, as both programs spell it: the maximum with zero. -/
def relu (x : EReal) : EReal := max x zero

/-- The three layers on one row. -/
def mlp (W1 : Fin 1024 → Fin 2 → EReal) (b1 : Fin 1024 → EReal) (W2 : Fin 1024 → Fin 1024 → EReal) (b2 : Fin 1024 → EReal)
    (W3 : Fin 2 → Fin 1024 → EReal) (b3 : Fin 2 → EReal) (y : Fin 2 → EReal) : Fin 2 → EReal :=
  dense (fun k => relu (dense (fun k => relu (dense y W1 b1 k)) W2 b2 k)) W3 b3

/-- The skew matrix `[[0, −μ], [μ, 0]]`. -/
def skew (μ : EReal) (i j : Fin 2) : EReal :=
  if i.val = 0 then (if j.val = 0 then zero else -μ) else (if j.val = 0 then μ else zero)

/-- The system matrix `J − R`. -/
def sysmat (μ : EReal) (R : Fin 2 → Fin 2 → EReal) (i j : Fin 2) : EReal := skew μ i j - R i j

/-- The last step as the reference computes it. -/
def mixRef (A : Fin 2 → Fin 2 → EReal) (B s : Fin 2 → EReal) (u : EReal) (g : Fin 2 → EReal) (i : Fin 2) : EReal :=
  ((∑ j : Fin 2, A i j * g j) + B i * u) * s i

/-- The last step as the kernel computes it, from the six coefficients `A i j · s i`, `(B i · u) · s i`. -/
def mixKer (A : Fin 2 → Fin 2 → EReal) (B s : Fin 2 → EReal) (u : EReal) (g : Fin 2 → EReal) (i : Fin 2) : EReal :=
  (g 0 * (A i 0 * s i) + g 1 * (A i 1 * s i)) + (B i * u) * s i

/-! ## Real entries -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

theorem isReal_zero : IsReal zero := ⟨0, by rw [zero_eq]; rfl⟩

theorem IsReal.sum {ι : Type*} (s : Finset ι) (f : ι → EReal) (h : ∀ i ∈ s, IsReal (f i)) : IsReal (∑ i ∈ s, f i) :=
  Finset.sum_induction f IsReal (fun _ _ ha hb => ha.add hb) ⟨0, rfl⟩ h

theorem IsReal.relu {x : EReal} (hx : IsReal x) : IsReal (relu x) := hx.max isReal_zero

theorem IsReal.dense {K N : ℕ} {x : Fin K → EReal} {W : Fin N → Fin K → EReal} {b : Fin N → EReal}
    (hx : ∀ k, IsReal (x k)) (hW : ∀ n k, IsReal (W n k)) (hb : ∀ n, IsReal (b n)) (n : Fin N) : IsReal (dense x W b n) :=
  (IsReal.sum _ _ fun k _ => (hx k).mul (hW n k)).add (hb n)

theorem IsReal.mlp {W1 : Fin 1024 → Fin 2 → EReal} {b1 : Fin 1024 → EReal} {W2 : Fin 1024 → Fin 1024 → EReal}
    {b2 : Fin 1024 → EReal} {W3 : Fin 2 → Fin 1024 → EReal} {b3 : Fin 2 → EReal} {y : Fin 2 → EReal}
    (h1 : ∀ n k, IsReal (W1 n k)) (hb1 : ∀ n, IsReal (b1 n)) (h2 : ∀ n k, IsReal (W2 n k)) (hb2 : ∀ n, IsReal (b2 n))
    (h3 : ∀ n k, IsReal (W3 n k)) (hb3 : ∀ n, IsReal (b3 n)) (hy : ∀ k, IsReal (y k)) (j : Fin 2) :
    IsReal (mlp W1 b1 W2 b2 W3 b3 y j) :=
  IsReal.dense (fun k => (IsReal.dense (fun k => (IsReal.dense hy h1 hb1 k).relu) h2 hb2 k).relu) h3 hb3 j

theorem IsReal.skew {μ : EReal} (hμ : IsReal μ) (i j : Fin 2) : IsReal (skew μ i j) := by
  unfold Cert.Spec.skew
  split_ifs
  · exact isReal_zero
  · exact hμ.neg
  · exact hμ
  · exact isReal_zero

theorem IsReal.sysmat {μ : EReal} {R : Fin 2 → Fin 2 → EReal} (hμ : IsReal μ) (hR : ∀ i j, IsReal (R i j)) (i j : Fin 2) :
    IsReal (sysmat μ R i j) := (IsReal.skew hμ i j).sub (hR i j)

/-! ## The law -/

/-- On real entries the reference's last step is the kernel's: the row scale distributes over the three terms. -/
theorem mixRef_eq_mixKer {A : Fin 2 → Fin 2 → EReal} {B s : Fin 2 → EReal} {u : EReal} {g : Fin 2 → EReal}
    (hA : ∀ i j, IsReal (A i j)) (hB : ∀ i, IsReal (B i)) (hs : ∀ i, IsReal (s i)) (hu : IsReal u) (hg : ∀ j, IsReal (g j))
    (i : Fin 2) : mixRef A B s u g i = mixKer A B s u g i := by
  unfold mixRef mixKer
  rw [Fin.sum_univ_two]
  obtain ⟨a0, h0⟩ := hA i 0; obtain ⟨a1, h1⟩ := hA i 1
  obtain ⟨b, hb⟩ := hB i; obtain ⟨σ, hσ⟩ := hs i; obtain ⟨υ, rfl⟩ := hu
  obtain ⟨g0, hg0⟩ := hg 0; obtain ⟨g1, hg1⟩ := hg 1
  rw [h0, h1, hb, hσ, hg0, hg1]
  simp only [← EReal.coe_mul, ← EReal.coe_add]
  congr 1
  ring

/-! ## The two results as whole-array functions of the twelve argument arrays -/

section Arrays

open Idealize.ShloMosaic.ValueIdx

/-- A two-axis array by coordinates. -/
def mat {M N : ℕ} (x : (⟨2, ![M, N]⟩ : Shape).Idx → EReal) (i : Fin M) (j : Fin N) : EReal := x (ix2 i j)
/-- A one-axis array by its coordinate. -/
def vec {N : ℕ} (x : (⟨1, ![N]⟩ : Shape).Idx → EReal) (i : Fin N) : EReal := x (ix1 i)
/-- A column (an array of shape [M, 1]) by its row coordinate. -/
def col {M : ℕ} (x : (⟨2, ![M, 1]⟩ : Shape).Idx → EReal) (i : Fin M) : EReal := x (ix2 i 0)
/-- A scalar array's one entry. -/
def scal (x : (⟨0, ![]⟩ : Shape).Idx → EReal) : EReal := x ix0

variable (x0 : (⟨2, ![131072, 2]⟩ : Shape).Idx → EReal) (x1 x2 : (⟨0, ![]⟩ : Shape).Idx → EReal)
  (x3 : (⟨2, ![1024, 2]⟩ : Shape).Idx → EReal) (x4 : (⟨1, ![1024]⟩ : Shape).Idx → EReal)
  (x5 : (⟨2, ![1024, 1024]⟩ : Shape).Idx → EReal) (x6 : (⟨1, ![1024]⟩ : Shape).Idx → EReal)
  (x7 : (⟨2, ![2, 1024]⟩ : Shape).Idx → EReal) (x8 : (⟨1, ![2]⟩ : Shape).Idx → EReal)
  (x9 : (⟨2, ![2, 2]⟩ : Shape).Idx → EReal) (x10 x11 : (⟨2, ![2, 1]⟩ : Shape).Idx → EReal)

/-- The three layers applied to row `b` of the batch. -/
def grad (b : Fin 131072) : Fin 2 → EReal := mlp (mat x3) (vec x4) (mat x5) (vec x6) (mat x7) (vec x8) (mat x0 b)

/-- The reference's result at `(b, i)`. -/
def resRef : (⟨2, ![131072, 2]⟩ : Shape).Idx → EReal := fun idx =>
  mixRef (sysmat (scal x2) (mat x9)) (col x10) (col x11) (scal x1) (grad x0 x3 x4 x5 x6 x7 x8 (idx 0)) (idx 1)

/-- The kernel's result at `(b, i)`. -/
def resKer : (⟨2, ![131072, 2]⟩ : Shape).Idx → EReal := fun idx =>
  mixKer (sysmat (scal x2) (mat x9)) (col x10) (col x11) (scal x1) (grad x0 x3 x4 x5 x6 x7 x8 (idx 0)) (idx 1)

/-- With real inputs the two results are one array. -/
theorem resRef_eq_resKer (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i))
    (h8 : ∀ i, IsReal (x8 i)) (h9 : ∀ i, IsReal (x9 i)) (h10 : ∀ i, IsReal (x10 i)) (h11 : ∀ i, IsReal (x11 i)) :
    resRef x0 x1 x2 x3 x4 x5 x6 x7 x8 x9 x10 x11 = resKer x0 x1 x2 x3 x4 x5 x6 x7 x8 x9 x10 x11 := by
  funext idx
  exact mixRef_eq_mixKer (fun i j => IsReal.sysmat (h2 _) (fun i j => h9 _) i j) (fun i => h10 _) (fun i => h11 _) (h1 _)
    (fun j => IsReal.mlp (fun n k => h3 _) (fun n => h4 _) (fun n k => h5 _) (fun n => h6 _) (fun n k => h7 _) (fun n => h8 _)
      (fun k => h0 _) j) (idx 1)

end Arrays

end Cert.Spec

end
-- ==== Proof.RefIsSpec.lean ====
/-
  The reference program's result is the specification's function: read at the index (b, i), the last stage of the
  reference is ((∑ j, A i j · g j) + B i · u) · s i with A = J − R, J the skew matrix of the scalar μ, and g the three
  dense layers applied to row b of the batch.
-/
import proofs.«136312_j54107997995500_1_alg».proof.Proof.Gen.ReferenceIdeal.Read
import proofs.«136312_j54107997995500_1_alg».proof.Proof.Spec
import Idealize.ShloMosaic.Lib.ValueIdx
import Idealize.ShloMosaic.Lib.Pipeline.Value

noncomputable section

namespace Cert.RefIsSpec

open Cert.ReferenceIdeal Cert.ReferenceIdeal.Gen Cert.ReferenceIdeal.Read Idealize.ShloMosaic Idealize.ShloMosaic.ValueIdx Cert.Spec

/-! ## The three dense layers -/

/-- The first layer at (b, n): the rectified dense layer of row b. -/
theorem layer1 (x0 : (⟨S131072x2, .f32⟩ : BufTy).Contents (Elt Ideal)) (x3 : (⟨S1024x2, .f32⟩ : BufTy).Contents (Elt Ideal))
    (x4 : (⟨S1024, .f32⟩ : BufTy).Contents (Elt Ideal)) (b : Fin 131072) (n : Fin 1024) :
    val_main_v5 (F := Ideal) x0 x3 x4 (ix2 b n) = relu (dense (mat x0 b) (mat x3) (vec x4) n) := by
  have hs : ∀ k : Fin 2, x0 (lidx_main_v1 (ix2 b n) k) * val_main_v0 (F := Ideal) x3 (ridx_main_v1 (ix2 b n) k)
      = mat x0 b k * mat x3 n k := fun k => by
    rw [val_main_v0_apply,
      show lidx_main_v1 (ix2 b n) k = ix2 b k from funext fun a => Fin.ext (by match a with | ⟨0, _⟩ => rfl | ⟨1, _⟩ => rfl),
      show idx_main_v0 (ridx_main_v1 (ix2 b n) k) = ix2 n k from funext fun a => Fin.ext (by match a with | ⟨0, _⟩ => rfl | ⟨1, _⟩ => rfl)]
    rfl
  rw [val_main_v5_apply, val_main_v4_apply, val_main_v1_apply, val_main_v3_apply, val_main_v2_apply, val_main_call0_v0_apply,
    val_main_call0_cst_apply, Finset.sum_congr rfl fun k _ => hs k,
    show idx_main_v2 (idx_main_v3 (ix2 b n)) = ix1 n from funext fun a => Fin.ext (by match a with | ⟨0, _⟩ => rfl)]
  rfl

/-- The second layer at (b, n). -/
theorem layer2 (x0 : (⟨S131072x2, .f32⟩ : BufTy).Contents (Elt Ideal)) (x3 : (⟨S1024x2, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (b : Fin 131072) (n : Fin 1024) :
    val_main_v11 (F := Ideal) x0 x3 x4 x5 x6 (ix2 b n)
      = relu (dense (fun k => relu (dense (mat x0 b) (mat x3) (vec x4) k)) (mat x5) (vec x6) n) := by
  have hs : ∀ k : Fin 1024, val_main_v5 (F := Ideal) x0 x3 x4 (lidx_main_v7 (ix2 b n) k)
      * val_main_v6 (F := Ideal) x5 (ridx_main_v7 (ix2 b n) k)
      = relu (dense (mat x0 b) (mat x3) (vec x4) k) * mat x5 n k := fun k => by
    rw [val_main_v6_apply,
      show lidx_main_v7 (ix2 b n) k = ix2 b k from funext fun a => Fin.ext (by match a with | ⟨0, _⟩ => rfl | ⟨1, _⟩ => rfl),
      show idx_main_v6 (ridx_main_v7 (ix2 b n) k) = ix2 n k from funext fun a => Fin.ext (by match a with | ⟨0, _⟩ => rfl | ⟨1, _⟩ => rfl),
      layer1]
    rfl
  rw [val_main_v11_apply, val_main_v10_apply, val_main_v7_apply, val_main_v9_apply, val_main_v8_apply, val_main_call1_v0_apply,
    val_main_call1_cst_apply, Finset.sum_congr rfl fun k _ => hs k,
    show idx_main_v8 (idx_main_v9 (ix2 b n)) = ix1 n from funext fun a => Fin.ext (by match a with | ⟨0, _⟩ => rfl)]
  rfl

/-- The third layer at (b, j): the specification's three layers on row b. -/
theorem layer3 (x0 : (⟨S131072x2, .f32⟩ : BufTy).Contents (Elt Ideal)) (x3 : (⟨S1024x2, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S2x1024, .f32⟩ : BufTy).Contents (Elt Ideal))
    (x8 : (⟨S2, .f32⟩ : BufTy).Contents (Elt Ideal)) (b : Fin 131072) (j : Fin 2) :
    val_main_v16 (F := Ideal) x0 x3 x4 x5 x6 x7 x8 (ix2 b j) = grad x0 x3 x4 x5 x6 x7 x8 b j := by
  have hs : ∀ k : Fin 1024, val_main_v11 (F := Ideal) x0 x3 x4 x5 x6 (lidx_main_v13 (ix2 b j) k)
      * val_main_v12 (F := Ideal) x7 (ridx_main_v13 (ix2 b j) k)
      = relu (dense (fun k => relu (dense (mat x0 b) (mat x3) (vec x4) k)) (mat x5) (vec x6) k) * mat x7 j k := fun k => by
    rw [val_main_v12_apply,
      show lidx_main_v13 (ix2 b j) k = ix2 b k from funext fun a => Fin.ext (by match a with | ⟨0, _⟩ => rfl | ⟨1, _⟩ => rfl),
      show idx_main_v12 (ridx_main_v13 (ix2 b j) k) = ix2 j k from funext fun a => Fin.ext (by match a with | ⟨0, _⟩ => rfl | ⟨1, _⟩ => rfl),
      layer2]
    rfl
  rw [val_main_v16_apply, val_main_v13_apply, val_main_v15_apply, val_main_v14_apply, Finset.sum_congr rfl fun k _ => hs k,
    show idx_main_v14 (idx_main_v15 (ix2 b j)) = ix1 j from funext fun a => Fin.ext (by match a with | ⟨0, _⟩ => rfl)]
  rfl

/-! ## The system matrix -/

/-- The skew matrix's first row: (0, −μ). -/
theorem row0 (x2 : (⟨S_, .f32⟩ : BufTy).Contents (Elt Ideal)) (j : Fin 2) :
    val_main_v21 (F := Ideal) x2 (ix1 j) = skew (scal x2) 0 j := by
  unfold val_main_v21
  match j with
  | ⟨0, _⟩ =>
    refine (concatenate_pair_apply_left (0 : Fin S2.rank) _ _ concatenates_S1_S1_S2_d0 (ix1 (0 : Fin 2)) rfl (ix1 (0 : Fin 1))
      (fun b => by match b with | ⟨0, _⟩ => rfl)).trans ?_
    rw [val_main_v19_apply, val_main_cst_apply]
    rfl
  | ⟨1, _⟩ =>
    refine (concatenate_pair_apply_right (0 : Fin S2.rank) _ _ concatenates_S1_S1_S2_d0 (ix1 (1 : Fin 2)) rfl rfl (ix1 (0 : Fin 1))
      (fun b hb => by match b with | ⟨0, _⟩ => exact absurd rfl hb) rfl).trans ?_
    rw [val_main_v20_apply, val_main_v18_apply]
    rfl

/-- The skew matrix's second row: (μ, 0). -/
theorem row1 (x2 : (⟨S_, .f32⟩ : BufTy).Contents (Elt Ideal)) (j : Fin 2) :
    val_main_v24 (F := Ideal) x2 (ix1 j) = skew (scal x2) 1 j := by
  unfold val_main_v24
  match j with
  | ⟨0, _⟩ =>
    refine (concatenate_pair_apply_left (0 : Fin S2.rank) _ _ concatenates_S1_S1_S2_d0 (ix1 (0 : Fin 2)) rfl (ix1 (0 : Fin 1))
      (fun b => by match b with | ⟨0, _⟩ => rfl)).trans ?_
    rw [val_main_v22_apply]
    rfl
  | ⟨1, _⟩ =>
    refine (concatenate_pair_apply_right (0 : Fin S2.rank) _ _ concatenates_S1_S1_S2_d0 (ix1 (1 : Fin 2)) rfl rfl (ix1 (0 : Fin 1))
      (fun b hb => by match b with | ⟨0, _⟩ => exact absurd rfl hb) rfl).trans ?_
    rw [val_main_v23_apply, val_main_cst_0_apply]
    rfl

/-- The stacked rows are the skew matrix. -/
theorem skew_read (x2 : (⟨S_, .f32⟩ : BufTy).Contents (Elt Ideal)) (i j : Fin 2) :
    val_main_v27 (F := Ideal) x2 (ix2 i j) = skew (scal x2) i j := by
  unfold val_main_v27
  match i with
  | ⟨0, _⟩ =>
    refine (concatenate_pair_apply_left (0 : Fin S2x2.rank) _ _ concatenates_S1x2_S1x2_S2x2_d0 (ix2 (0 : Fin 2) j) rfl
      (ix2 (0 : Fin 1) j) (fun b => by match b with | ⟨0, _⟩ => rfl | ⟨1, _⟩ => rfl)).trans ?_
    rw [val_main_v25_apply,
      show idx_main_v25 (ix2 (0 : Fin 1) j) = ix1 j from funext fun a => Fin.ext (by match a with | ⟨0, _⟩ => rfl)]
    exact row0 x2 j
  | ⟨1, _⟩ =>
    refine (concatenate_pair_apply_right (0 : Fin S2x2.rank) _ _ concatenates_S1x2_S1x2_S2x2_d0 (ix2 (1 : Fin 2) j) rfl rfl
      (ix2 (0 : Fin 1) j) (fun b hb => by match b with | ⟨0, _⟩ => exact absurd rfl hb | ⟨1, _⟩ => rfl) rfl).trans ?_
    rw [val_main_v26_apply,
      show idx_main_v26 (ix2 (0 : Fin 1) j) = ix1 j from funext fun a => Fin.ext (by match a with | ⟨0, _⟩ => rfl)]
    exact row1 x2 j

/-- The system matrix J − R at (i, j). -/
theorem sysmat_read (x2 : (⟨S_, .f32⟩ : BufTy).Contents (Elt Ideal)) (x9 : (⟨S2x2, .f32⟩ : BufTy).Contents (Elt Ideal)) (i j : Fin 2) :
    val_main_v28 (F := Ideal) x2 x9 (ix2 i j) = sysmat (scal x2) (mat x9) i j := by
  rw [val_main_v28_apply, skew_read]
  rfl

/-! ## The assembly -/

/-- The reference's result is the specification's function of the twelve argument arrays. -/
theorem ref_is_spec (x0 : (⟨S131072x2, .f32⟩ : BufTy).Contents (Elt Ideal)) (x1 x2 : (⟨S_, .f32⟩ : BufTy).Contents (Elt Ideal))
    (x3 : (⟨S1024x2, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S2x1024, .f32⟩ : BufTy).Contents (Elt Ideal)) (x8 : (⟨S2, .f32⟩ : BufTy).Contents (Elt Ideal))
    (x9 : (⟨S2x2, .f32⟩ : BufTy).Contents (Elt Ideal)) (x10 x11 : (⟨S2x1, .f32⟩ : BufTy).Contents (Elt Ideal)) :
    val_main_v36 (F := Ideal) x0 x1 x2 x3 x4 x5 x6 x7 x8 x9 x10 x11 = resRef x0 x1 x2 x3 x4 x5 x6 x7 x8 x9 x10 x11 := by
  funext idx
  obtain ⟨b, i, rfl⟩ : ∃ (b : Fin 131072) (i : Fin 2), idx = ix2 b i := ⟨idx 0, idx 1, eq_ix2 idx⟩
  have hs : ∀ k : Fin 2, val_main_v28 (F := Ideal) x2 x9 (lidx_main_v29 (ix2 i b) k)
      * val_main_v17 (F := Ideal) x0 x3 x4 x5 x6 x7 x8 (ridx_main_v29 (ix2 i b) k)
      = sysmat (scal x2) (mat x9) i k * grad x0 x3 x4 x5 x6 x7 x8 b k := fun k => by
    rw [val_main_v17_apply,
      show lidx_main_v29 (ix2 i b) k = ix2 i k from funext fun a => Fin.ext (by match a with | ⟨0, _⟩ => rfl | ⟨1, _⟩ => rfl),
      show idx_main_v17 (ridx_main_v29 (ix2 i b) k) = ix2 b k from funext fun a => Fin.ext (by match a with | ⟨0, _⟩ => rfl | ⟨1, _⟩ => rfl),
      sysmat_read, layer3]
  rw [val_main_v36_apply,
    show idx_main_v36 (ix2 b i) = ix2 i b from funext fun a => Fin.ext (by match a with | ⟨0, _⟩ => rfl | ⟨1, _⟩ => rfl),
    val_main_v35_apply, val_main_v33_apply, val_main_v29_apply, val_main_v32_apply, val_main_v31_apply, val_main_v30_apply,
    val_main_v34_apply, Finset.sum_congr rfl fun k _ => hs k,
    show idx_main_v32 (ix2 i b) = ix2 i (0 : Fin 1) from funext fun a => Fin.ext (by match a with | ⟨0, _⟩ => rfl | ⟨1, _⟩ => rfl),
    show idx_main_v34 (ix2 i b) = ix2 i (0 : Fin 1) from funext fun a => Fin.ext (by match a with | ⟨0, _⟩ => rfl | ⟨1, _⟩ => rfl)]
  rfl

end Cert.RefIsSpec

end
-- ==== Proof.LibPlainDot.lean ====
/-
  A matrix product with the plain dimension numbers — rows × contraction by contraction × columns, no batch
  axis — into a zero accumulator, read at the ideal values at an entry `(i, j)`: the sum over the contraction
  coordinate `q` of `lhs (i, q) · rhs (q, j)`.  General in the three extents and in the dimension-number record,
  which is only asked to list the axes as the plain product does.
-/
import Idealize.ShloMosaic.Lib.ValueIdx
import Idealize.ShloMosaic.PureOps.Ideal.Laws

noncomputable section

namespace Cert.PlainDot

open Idealize.ShloMosaic Idealize.ShloMosaic.ValueIdx

/-- The entry `(i, j)` of `lhs · rhs` accumulated into zeros is `∑ q, lhs (i, q) · rhs (q, j)`. -/
theorem matmul_zero_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (i : Fin M) (j : Fin N) :
    matmul d prec l r (constant ⟨2, ![M, N]⟩ .f32 0x00000000#32) (ix2 i j) = ∑ q : Fin K, l (ix2 i q) * r (ix2 q j) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  -- the two operand indices at `(i, j)` and a contraction position, coordinate by coordinate
  have l0 : ∀ k, (d.lhsIdx (ix2 i j) k (0 : Fin 2)).val = i.val := fun k => by
    subst hd
    unfold DotDims.lhsIdx
    rw [dif_neg (show ¬ (0 : Fin 2) ∈ ([] : List (Fin 2)) from List.not_mem_nil),
      dif_pos (show (0 : Fin 2) ∈ [(0 : Fin 2)] from List.mem_singleton.mpr rfl)]
    rfl
  have r1 : ∀ k, (d.rhsIdx (ix2 i j) k (1 : Fin 2)).val = j.val := fun k => by
    subst hd
    unfold DotDims.rhsIdx
    rw [dif_neg (show ¬ (1 : Fin 2) ∈ ([] : List (Fin 2)) from List.not_mem_nil),
      dif_pos (show (1 : Fin 2) ∈ [(1 : Fin 2)] from List.mem_singleton.mpr rfl)]
    rfl
  simp only [matmul]
  rw [Ideal.matmul_constant_zero_apply, ← Equiv.sum_comp (contrEquiv1 d K hr hs).symm]
  refine Finset.sum_congr rfl fun q _ => ?_
  have hq := contrEquiv1_symm_val d K hr hs q
  have el : d.lhsIdx (ix2 i j) ((contrEquiv1 d K hr hs).symm q) = ix2 i q := funext fun a => Fin.ext (by
    match a with
    | ⟨0, _⟩ => exact l0 _
    | ⟨1, _⟩ => exact (d.lhsIdx_val_of_single hlc _ _).trans hq)
  have er : d.rhsIdx (ix2 i j) ((contrEquiv1 d K hr hs).symm q) = ix2 q j := funext fun a => Fin.ext (by
    match a with
    | ⟨0, _⟩ => exact (d.rhsIdx_val_of_single hrc _ _).trans hq
    | ⟨1, _⟩ => exact r1 _)
  rw [el, er]

end Cert.PlainDot

end
-- ==== Proof.KerPay.lean ====
/-
  The kernel body's arithmetic at an entry.

  At a grid point the body holds a block of 1024 rows of the batch and all the weights.  Each dense layer is a
  matrix product into a zero accumulator plus the bias laid as one row and repeated down the rows; a rectified
  linear unit is the maximum with a zero repeated everywhere; the changes of float format are the identity on the
  ideal values.  So row `r` of the third layer's result is the three layers of row `r` of the block, the weights
  read transposed (the kernel is handed them transposed).  The last step cuts the two columns of that result apart,
  combines them with six scalars read one by one from a row of six coefficients, and lays the two combinations side
  by side again.
-/
import proofs.«136312_j54107997995500_1_alg».proof.Proof.Gen.KernelIdeal.Frame
import proofs.«136312_j54107997995500_1_alg».proof.Proof.Spec
import proofs.«136312_j54107997995500_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KerPay

open Cert.KernelIdeal Cert.KernelIdeal.Gen Idealize.ShloMosaic Idealize.ShloMosaic.ValueIdx

/-- One dense layer on a block of rows: the product into zeros plus the bias row repeated down the rows, at entry
    `(r, n)`, is the dense layer of row `r` with the weight matrix read as `(k, n)`. -/
theorem layer_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (r : Fin M) (n : Fin N) :
    addf (matmul d none l w (constant ⟨2, ![M, N]⟩ .f32 0x00000000#32))
        (broadcastTo ⟨2, ![M, N]⟩ (shapeCast ⟨2, ![1, N]⟩ b hc) hb) (ix2 r n)
      = Cert.Spec.dense (fun k => l (ix2 r k)) (fun n k => w (ix2 k n)) (fun n => b (ix1 n)) n := by
  rw [addf_apply, Cert.PlainDot.matmul_zero_apply d hlc hrc hln hrn hlb hrb, broadcastTo_1b_ab_apply, shapeCast_a_1a_apply]
  rfl

/-- The same followed by the rectified linear unit. -/
theorem layer_relu_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (r : Fin M) (n : Fin N) :
    maximumf (addf (matmul d none l w (constant ⟨2, ![M, N]⟩ .f32 0x00000000#32))
        (broadcastTo ⟨2, ![M, N]⟩ (shapeCast ⟨2, ![1, N]⟩ b hc) hb))
        (broadcast ⟨2, ![M, N]⟩ (Scalar.ofBits (F := Ideal) .f32 0x00000000#32)) (ix2 r n)
      = Cert.Spec.relu (Cert.Spec.dense (fun k => l (ix2 r k)) (fun n k => w (ix2 k n)) (fun n => b (ix1 n)) n) := by
  rw [maximumf_apply, layer_apply d hlc hrc hln hrn hlb hrb]
  rfl

variable [Cert.KernelIdeal.Facts]

/-- Row `r` of the third layer's result: the three layers of row `r` of the block of inputs. -/
theorem layers_apply (v0 : Vec Ideal S1024x2 .f32) (v2 : Vec Ideal S2x1024 .bf16) (v5 : Vec Ideal S1024 .f32)
    (v12 : Vec Ideal S1024x1024 .bf16) (v15 : Vec Ideal S1024 .f32) (v22 : Vec Ideal S1024x2 .bf16) (v25 : Vec Ideal S2 .f32)
    (r : Fin 1024) (j : Fin 2) :
    k0_pay2 (F := Ideal) v0 v2 v5 v12 v15 v22 v25 (ix2 r j)
      = Cert.Spec.mlp (fun n k => v2 (ix2 k n)) (fun n => v5 (ix1 n)) (fun n k => v12 (ix2 k n)) (fun n => v15 (ix1 n))
          (fun j k => v22 (ix2 k j)) (fun j => v25 (ix1 j)) (fun k => v0 (ix2 r k)) j := by
  unfold k0_pay2
  simp only [shapeCast_self]
  refine (layer_apply _ rfl rfl rfl rfl rfl rfl _ _ _ _ _ r j).trans ?_
  unfold Cert.Spec.mlp
  congr 1
  funext k
  refine (layer_relu_apply _ rfl rfl rfl rfl rfl rfl _ _ _ _ _ r k).trans ?_
  congr 2
  funext k'
  exact layer_relu_apply _ rfl rfl rfl rfl rfl rfl _ _ _ _ _ r k'

/-- The unit-offset forms of the zero offsets. -/
theorem off2 : (![0, 0] : Fin 2 → Nat) = fun _ => 0 := funext fun a => by fin_cases a <;> rfl
theorem off1 : (![0] : Fin 1 → Nat) = fun _ => 0 := funext fun a => by fin_cases a; rfl

/-- Column 0 of the last step: the first combination of the two columns of the layers' result. -/
theorem combine_apply_0 (v28 : FVec Ideal S1024x2 .f32) (v30 v32 v34 : Idealize.ShloMosaic.Ideal .f32) (v35 v37 v39 : Vec Ideal S1x1 .f32)
    (r : Fin 1024) :
    k0_pay1 (F := Ideal) v28 v30 v32 v34 v35 v37 v39 (ix2 r 0)
      = (v28 (ix2 r 0) * v30 + v28 (ix2 r 1) * v32) + v37 (ix2 0 0) := by
  unfold k0_pay1
  refine (concatenate_pair_apply_left (t := S1024x2) (s₁ := S1024x1) (s₂ := S1024x1) (1 : Fin 2) _ _ _ (ix2 r (0 : Fin 2)) rfl (ix2 r (0 : Fin 1)) ?_).trans ?_
  · intro b
    match b with
    | ⟨0, _⟩ => rfl
    | ⟨1, _⟩ => rfl
  · show (extractStridedSlice S1024x1 ![0, 0] v28 slices_S1024x2_o0_0_S1024x1 (ix2 r 0) * v30
        + extractStridedSlice S1024x1 ![0, 1] v28 slices_S1024x2_o0_1_S1024x1 (ix2 r 0) * v32)
        + extractAt ![0, 0] v37 inpos_S1x1_p0_0 = _
    rw [slice2_axis1_apply 0 v28 _ r 0 0 rfl, slice2_axis1_apply 1 v28 _ r 0 1 rfl]
    congr 1
    exact congrArg v37 (funext fun a => by
      match a with
      | ⟨0, _⟩ => rfl
      | ⟨1, _⟩ => rfl)

/-- Column 1 of the last step: the second combination. -/
theorem combine_apply_1 (v28 : FVec Ideal S1024x2 .f32) (v30 v32 v34 : Idealize.ShloMosaic.Ideal .f32) (v35 v37 v39 : Vec Ideal S1x1 .f32)
    (r : Fin 1024) :
    k0_pay1 (F := Ideal) v28 v30 v32 v34 v35 v37 v39 (ix2 r 1)
      = (v28 (ix2 r 0) * v34 + v28 (ix2 r 1) * v35 (ix2 0 0)) + v39 (ix2 0 0) := by
  unfold k0_pay1
  refine (concatenate_pair_apply_right (t := S1024x2) (s₁ := S1024x1) (s₂ := S1024x1) (1 : Fin 2) _ _ _ (ix2 r (1 : Fin 2)) rfl rfl (ix2 r (0 : Fin 1)) ?_ ?_).trans ?_
  · intro b hb
    match b with
    | ⟨0, _⟩ => rfl
    | ⟨1, _⟩ => exact absurd rfl hb
  · rfl
  · show (extractStridedSlice S1024x1 ![0, 0] v28 slices_S1024x2_o0_0_S1024x1 (ix2 r 0) * v34
        + extractStridedSlice S1024x1 ![0, 1] v28 slices_S1024x2_o0_1_S1024x1 (ix2 r 0) * extractAt ![0, 0] v35 inpos_S1x1_p0_0)
        + extractAt ![0, 0] v39 inpos_S1x1_p0_0 = _
    rw [slice2_axis1_apply 0 v28 _ r 0 0 rfl, slice2_axis1_apply 1 v28 _ r 0 1 rfl]
    have e : ∀ v : Vec Ideal S1x1 .f32, extractAt ![0, 0] v inpos_S1x1_p0_0 = v (ix2 0 0) := fun v =>
      congrArg v (funext fun a => by
        match a with
        | ⟨0, _⟩ => rfl
        | ⟨1, _⟩ => rfl)
    rw [e, e]

/-- The six coefficients as the body reads them: a 1 × 1 load at column `k` of the row of six, then its one entry. -/
theorem coef_read_0 (x7 : Vec Ideal S1x6 .f32) : k0_pay3 (F := Ideal) (View.ld x7 r0_5) = x7 (ix2 0 0) :=
  congrArg x7 (funext fun a => Fin.ext (by
    match a with
    | ⟨0, _⟩ => rfl
    | ⟨1, _⟩ => rfl))
theorem coef_read_1 (x7 : Vec Ideal S1x6 .f32) : k0_pay4 (F := Ideal) (View.ld x7 r0_6) = x7 (ix2 0 1) :=
  congrArg x7 (funext fun a => Fin.ext (by
    match a with
    | ⟨0, _⟩ => rfl
    | ⟨1, _⟩ => rfl))
theorem coef_read_2 (x7 : Vec Ideal S1x6 .f32) : k0_pay5 (F := Ideal) (View.ld x7 r0_7) = x7 (ix2 0 2) :=
  congrArg x7 (funext fun a => Fin.ext (by
    match a with
    | ⟨0, _⟩ => rfl
    | ⟨1, _⟩ => rfl))
theorem coef_read_3 (x7 : Vec Ideal S1x6 .f32) : View.ld x7 r0_8 (ix2 0 0) = x7 (ix2 0 3) :=
  congrArg x7 (funext fun a => Fin.ext (by
    match a with
    | ⟨0, _⟩ => rfl
    | ⟨1, _⟩ => rfl))
theorem coef_read_4 (x7 : Vec Ideal S1x6 .f32) : View.ld x7 r0_9 (ix2 0 0) = x7 (ix2 0 4) :=
  congrArg x7 (funext fun a => Fin.ext (by
    match a with
    | ⟨0, _⟩ => rfl
    | ⟨1, _⟩ => rfl))
theorem coef_read_5 (x7 : Vec Ideal S1x6 .f32) : View.ld x7 r0_10 (ix2 0 0) = x7 (ix2 0 5) :=
  congrArg x7 (funext fun a => Fin.ext (by
    match a with
    | ⟨0, _⟩ => rfl
    | ⟨1, _⟩ => rfl))

/-- The three layers of row `r` of the block `x0`, the weights `x1`, `x3`, `x5` read transposed. -/
abbrev blockGrad (x0 : Vec Ideal S1024x2 .f32) (x1 : Vec Ideal S2x1024 .bf16) (x2 : Vec Ideal S1024 .f32)
    (x3 : Vec Ideal S1024x1024 .bf16) (x4 : Vec Ideal S1024 .f32) (x5 : Vec Ideal S1024x2 .bf16) (x6 : Vec Ideal S2 .f32)
    (r : Fin 1024) : Fin 2 → EReal :=
  Cert.Spec.mlp (fun n k => x1 (ix2 k n)) (fun n => x2 (ix1 n)) (fun n k => x3 (ix2 k n)) (fun n => x4 (ix1 n))
    (fun j k => x5 (ix2 k j)) (fun j => x6 (ix1 j)) (fun k => x0 (ix2 r k))

/-- What the body leaves in the output block, column 0. -/
theorem out_apply_0 (x0 : Vec Ideal S1024x2 .f32) (x1 : Vec Ideal S2x1024 .bf16) (x2 : Vec Ideal S1024 .f32)
    (x3 : Vec Ideal S1024x1024 .bf16) (x4 : Vec Ideal S1024 .f32) (x5 : Vec Ideal S1024x2 .bf16) (x6 : Vec Ideal S2 .f32)
    (x7 : Vec Ideal S1x6 .f32) (r : Fin 1024) :
    out0_8 (F := Ideal) x0 x1 x2 x3 x4 x5 x6 x7 (ix2 r 0)
      = (blockGrad x0 x1 x2 x3 x4 x5 x6 r 0 * x7 (ix2 0 0) + blockGrad x0 x1 x2 x3 x4 x5 x6 r 1 * x7 (ix2 0 1)) + x7 (ix2 0 4) := by
  unfold out0_8
  rw [View.canon_unit_zero off2]
  simp only [View.ld_unit_zero (S := S1024x2) off2, View.ld_unit_zero (S := S2x1024) off2, View.ld_unit_zero (S := S1024) off1,
    View.ld_unit_zero (S := S1024x1024) off2, View.ld_unit_zero (S := S2) off1]
  rw [combine_apply_0, layers_apply, layers_apply, coef_read_0, coef_read_1, coef_read_4]

/-- What the body leaves in the output block, column 1. -/
theorem out_apply_1 (x0 : Vec Ideal S1024x2 .f32) (x1 : Vec Ideal S2x1024 .bf16) (x2 : Vec Ideal S1024 .f32)
    (x3 : Vec Ideal S1024x1024 .bf16) (x4 : Vec Ideal S1024 .f32) (x5 : Vec Ideal S1024x2 .bf16) (x6 : Vec Ideal S2 .f32)
    (x7 : Vec Ideal S1x6 .f32) (r : Fin 1024) :
    out0_8 (F := Ideal) x0 x1 x2 x3 x4 x5 x6 x7 (ix2 r 1)
      = (blockGrad x0 x1 x2 x3 x4 x5 x6 r 0 * x7 (ix2 0 2) + blockGrad x0 x1 x2 x3 x4 x5 x6 r 1 * x7 (ix2 0 3)) + x7 (ix2 0 5) := by
  unfold out0_8
  rw [View.canon_unit_zero off2]
  simp only [View.ld_unit_zero (S := S1024x2) off2, View.ld_unit_zero (S := S2x1024) off2, View.ld_unit_zero (S := S1024) off1,
    View.ld_unit_zero (S := S1024x1024) off2, View.ld_unit_zero (S := S2) off1]
  rw [combine_apply_1, layers_apply, layers_apply, coef_read_2, coef_read_3, coef_read_5]

end Cert.KerPay

end
-- ==== Proof.KerHost.lean ====
/-
  What the kernel's host operations leave in the arrays its one call stages, read at an index.

  Before the call the kernel transposes the three weight matrices (and narrows them, the identity on the extended
  reals), and packs six coefficients into one row: the four entries A i j · s i of the system matrix A = J − R
  scaled row by row, then the two shifts (B i · u) · s i.
-/
import proofs.«136312_j54107997995500_1_alg».proof.Proof.Gen.KernelIdeal.Frame
import proofs.«136312_j54107997995500_1_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

namespace Cert.KerHost

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

/-! ## The transposed weights

The three weight arrays enter the call transposed and narrowed; narrowing is the identity on the extended reals, so
each reads the argument at the swapped index. -/

/-- A transpose of a two-axis array read at (a, b) is the operand at (b, a). -/
theorem transpose2_apply {M N : ℕ} (x : (⟨2, ![M, N]⟩ : Shape).Idx → EReal)
    (h : (⟨2, ![M, N]⟩ : Shape).Transposes [1, 0] (⟨2, ![N, M]⟩ : Shape)) (a : Fin N) (b : Fin M) :
    transpose (⟨2, ![N, M]⟩ : Shape) [1, 0] x h (ix2 a b) = x (ix2 b a) :=
  transpose_apply [1, 0] x h (ix2 a b) (ix2 b a) (fun d => match d with
    | ⟨0, _⟩ => rfl
    | ⟨1, _⟩ => rfl)

/-- The first layer's weights as the call finds them: the argument transposed. -/
theorem w1t_apply (k : Fin 2) (n : Fin 1024) :
    (V m c main_v23 : S2x1024.Idx → EReal) (ix2 k n)
      = (m ((c : Thread nD τ).loc main_arg3) : S1024x2.Idx → EReal) (ix2 n k) := by
  have e : (V m c main_v23 : S2x1024.Idx → EReal)
      = truncf (F := Ideal) .bf16 (transpose S2x1024 [1, 0] (m ((c : Thread nD τ).loc main_arg3) : S1024x2.Idx → EReal)
          transposes_S1024x2_S2x1024_1_0) bitsLt_bf16_f32 := by
    dsimp only [Gen.V, Gen.hostOps0]; after_results
  rw [e]
  exact transpose2_apply _ transposes_S1024x2_S2x1024_1_0 k n

/-- The second layer's weights as the call finds them: the argument transposed. -/
theorem w2t_apply (k n : Fin 1024) :
    (V m c main_v25 : S1024x1024.Idx → EReal) (ix2 k n)
      = (m ((c : Thread nD τ).loc main_arg5) : S1024x1024.Idx → EReal) (ix2 n k) := by
  have e : (V m c main_v25 : S1024x1024.Idx → EReal)
      = truncf (F := Ideal) .bf16 (transpose S1024x1024 [1, 0] (m ((c : Thread nD τ).loc main_arg5) : S1024x1024.Idx → EReal)
          transposes_S1024x1024_S1024x1024_1_0) bitsLt_bf16_f32 := by
    dsimp only [Gen.V, Gen.hostOps0]; after_results
  rw [e]
  exact transpose2_apply _ transposes_S1024x1024_S1024x1024_1_0 k n

/-- The third layer's weights as the call finds them: the argument transposed. -/
theorem w3t_apply (k : Fin 1024) (j : Fin 2) :
    (V m c main_v27 : S1024x2.Idx → EReal) (ix2 k j)
      = (m ((c : Thread nD τ).loc main_arg7) : S2x1024.Idx → EReal) (ix2 j k) := by
  have e : (V m c main_v27 : S1024x2.Idx → EReal)
      = truncf (F := Ideal) .bf16 (transpose S1024x2 [1, 0] (m ((c : Thread nD τ).loc main_arg7) : S2x1024.Idx → EReal)
          transposes_S2x1024_S1024x2_1_0) bitsLt_bf16_f32 := by
    dsimp only [Gen.V, Gen.hostOps0]; after_results
  rw [e]
  exact transpose2_apply _ transposes_S2x1024_S1024x2_1_0 k j

/-! ## Small layout operations read at an index -/

/-- A broadcast of a scalar array reads the scalar's one entry everywhere. -/
theorem bcastScalar_apply {t : Shape} (dims : Fin S_.rank → Fin t.rank) (h : S_.BroadcastsInDim t dims)
    (x : S_.Idx → EReal) (j : t.Idx) : broadcastInDim t dims h x j = x ix0 :=
  broadcastInDim_apply dims h x j ix0 (fun a => a.elim0)

/-- Two one-entry arrays joined: entry 0 is the first's. -/
theorem cat11_left (a b : S1.Idx → EReal) :
    concatenate S2 0 [⟨S1, a⟩, ⟨S1, b⟩] concatenates_S1_S1_S2_d0 (ix1 (0 : Fin 2)) = a (ix1 (0 : Fin 1)) :=
  concatenate_pair_apply_left 0 a b concatenates_S1_S1_S2_d0 (ix1 (0 : Fin 2)) rfl (ix1 (0 : Fin 1))
    (fun d => match d with | ⟨0, _⟩ => rfl)

/-- Two one-entry arrays joined: entry 1 is the second's. -/
theorem cat11_right (a b : S1.Idx → EReal) :
    concatenate S2 0 [⟨S1, a⟩, ⟨S1, b⟩] concatenates_S1_S1_S2_d0 (ix1 (1 : Fin 2)) = b (ix1 (0 : Fin 1)) :=
  concatenate_pair_apply_right 0 a b concatenates_S1_S1_S2_d0 (ix1 (1 : Fin 2)) rfl rfl (ix1 (0 : Fin 1))
    (fun d hd => match d, hd with | ⟨0, _⟩, hd => absurd rfl hd) rfl

/-- A two-entry array as a one-row matrix: entry (0, j) is entry j. -/
theorem rowOf_apply (x : S2.Idx → EReal) (j : Fin 2) :
    broadcastInDim S1x2 ![1] bcast_S2_S1x2_1 x (ix2 (0 : Fin 1) j) = x (ix1 j) :=
  broadcastInDim_apply _ bcast_S2_S1x2_1 x (ix2 (0 : Fin 1) j) (ix1 j) (fun a => match a with
    | ⟨0, _⟩ => by show j.val = if (2 : Nat) = 1 then 0 else j.val; rw [if_neg (by decide)])

/-- Two one-row matrices stacked: row 0 is the first's row. -/
theorem catRows_left (a b : S1x2.Idx → EReal) (j : Fin 2) :
    concatenate S2x2 0 [⟨S1x2, a⟩, ⟨S1x2, b⟩] concatenates_S1x2_S1x2_S2x2_d0 (ix2 (0 : Fin 2) j) = a (ix2 (0 : Fin 1) j) :=
  concatenate_pair_apply_left 0 a b concatenates_S1x2_S1x2_S2x2_d0 (ix2 (0 : Fin 2) j) rfl (ix2 (0 : Fin 1) j)
    (fun d => match d with | ⟨0, _⟩ => rfl | ⟨1, _⟩ => rfl)

/-- Two one-row matrices stacked: row 1 is the second's row. -/
theorem catRows_right (a b : S1x2.Idx → EReal) (j : Fin 2) :
    concatenate S2x2 0 [⟨S1x2, a⟩, ⟨S1x2, b⟩] concatenates_S1x2_S1x2_S2x2_d0 (ix2 (1 : Fin 2) j) = b (ix2 (0 : Fin 1) j) :=
  concatenate_pair_apply_right 0 a b concatenates_S1x2_S1x2_S2x2_d0 (ix2 (1 : Fin 2) j) rfl rfl (ix2 (0 : Fin 1) j)
    (fun d hd => match d, hd with | ⟨0, _⟩, hd => absurd rfl hd | ⟨1, _⟩, _ => rfl) rfl

/-- A column flattened: entry i is the column's row i. -/
theorem flatCol_apply (x : S2x1.Idx → EReal) (i : Fin 2) :
    shapeCast S2 x shapeCasts_S2x1_S2 (ix1 i) = x (ix2 i (0 : Fin 1)) :=
  shapeCast_apply x shapeCasts_S2x1_S2 _ _ (by
    rw [Shape.rowMajor_val_two, Shape.rowMajor_val_one]
    show i.val * 1 + 0 = i.val
    omega)

/-- A two-entry array as a column: row i is entry i. -/
theorem colOf_apply (x : S2.Idx → EReal) (i : Fin 2) :
    broadcastInDim S2x1 ![0] bcast_S2_S2x1_0 x (ix2 i (0 : Fin 1)) = x (ix1 i) :=
  broadcastInDim_apply _ bcast_S2_S2x1_0 x (ix2 i (0 : Fin 1)) (ix1 i) (fun a => match a with
    | ⟨0, _⟩ => by show i.val = if (2 : Nat) = 1 then 0 else i.val; rw [if_neg (by decide)])

/-- A column repeated along the rows' length: entry (i, j) is the column's row i. -/
theorem spreadCol_apply (x : S2x1.Idx → EReal) (i j : Fin 2) :
    broadcastInDim S2x2 ![0, 1] bcast_S2x1_S2x2_0_1 x (ix2 i j) = x (ix2 i (0 : Fin 1)) :=
  broadcastInDim_apply _ bcast_S2x1_S2x2_0_1 x (ix2 i j) (ix2 i (0 : Fin 1)) (fun a => match a with
    | ⟨0, _⟩ => by show i.val = if (2 : Nat) = 1 then 0 else i.val; rw [if_neg (by decide)]
    | ⟨1, _⟩ => by show (0 : Nat) = if (1 : Nat) = 1 then 0 else j.val; rw [if_pos rfl])

/-- A 2 × 2 matrix flattened row by row: entry 2 i + j is entry (i, j). -/
theorem flatMat_apply (x : S2x2.Idx → EReal) (i j : Fin 2) (k : Fin 4) (hk : k.val = 2 * i.val + j.val) :
    shapeCast S4 x shapeCasts_S2x2_S4 (ix1 k) = x (ix2 i j) :=
  shapeCast_apply x shapeCasts_S2x2_S4 _ _ (by
    rw [Shape.rowMajor_val_two, Shape.rowMajor_val_one]
    show i.val * 2 + j.val = k.val
    omega)

/-- Four entries then two: an entry below 4 is the first array's. -/
theorem cat42_left (a : S4.Idx → EReal) (b : S2.Idx → EReal) (k : Fin 6) (k' : Fin 4) (hk : k'.val = k.val) :
    concatenate S6 0 [⟨S4, a⟩, ⟨S2, b⟩] concatenates_S4_S2_S6_d0 (ix1 k) = a (ix1 k') :=
  concatenate_pair_apply_left 0 a b concatenates_S4_S2_S6_d0 (ix1 k) rfl (ix1 k')
    (fun d => match d with | ⟨0, _⟩ => hk)

/-- Four entries then two: an entry from 4 on is the second array's, four less. -/
theorem cat42_right (a : S4.Idx → EReal) (b : S2.Idx → EReal) (k : Fin 6) (k' : Fin 2) (hk : k'.val + 4 = k.val) :
    concatenate S6 0 [⟨S4, a⟩, ⟨S2, b⟩] concatenates_S4_S2_S6_d0 (ix1 k) = b (ix1 k') :=
  concatenate_pair_apply_right 0 a b concatenates_S4_S2_S6_d0 (ix1 k) rfl rfl (ix1 k')
    (fun d hd => match d, hd with | ⟨0, _⟩, hd => absurd rfl hd) hk

/-- A six-entry array as a one-row matrix: entry (0, k) is entry k. -/
theorem rowOf6_apply (x : S6.Idx → EReal) (k : Fin 6) :
    shapeCast S1x6 x shapeCasts_S6_S1x6 (ix2 (0 : Fin 1) k) = x (ix1 k) :=
  shapeCast_apply x shapeCasts_S6_S1x6 _ _ (by
    rw [Shape.rowMajor_val_two, Shape.rowMajor_val_one]
    show k.val = 0 * 6 + k.val
    omega)

/-! ## The coefficient row as the operations build it -/

section Terms

variable (μ u : S_.Idx → EReal) (R : S2x2.Idx → EReal) (B s : S2x1.Idx → EReal)

/-- The skew matrix as the operations build it: the rows [0, −μ] and [μ, 0], each joined from two one-entry
    arrays, laid out as one-row matrices and stacked. -/
def skewT : S2x2.Idx → EReal :=
  concatenate S2x2 0
    [⟨S1x2, broadcastInDim S1x2 ![1] bcast_S2_S1x2_1
        (concatenate S2 0
          [⟨S1, broadcastInDim S1 ![] bcast_S_S1 (constant (F := Ideal) S_ .f32 0x00000000#32)⟩,
           ⟨S1, broadcastInDim S1 ![] bcast_S_S1 (Host.negf (F := Ideal) (φ := .f32) μ)⟩]
          concatenates_S1_S1_S2_d0)⟩,
     ⟨S1x2, broadcastInDim S1x2 ![1] bcast_S2_S1x2_1
        (concatenate S2 0
          [⟨S1, broadcastInDim S1 ![] bcast_S_S1 μ⟩,
           ⟨S1, broadcastInDim S1 ![] bcast_S_S1 (constant (F := Ideal) S_ .f32 0x00000000#32)⟩]
          concatenates_S1_S1_S2_d0)⟩]
    concatenates_S1x2_S1x2_S2x2_d0

/-- The row scale as a two-entry array. -/
def scaleT : S2.Idx → EReal := shapeCast S2 s shapeCasts_S2x1_S2

/-- The six coefficients in one row: the system matrix scaled row by row and flattened, then the scaled shifts. -/
def coefRow : S1x6.Idx → EReal :=
  shapeCast S1x6
    (concatenate S6 0
      [⟨S4, shapeCast S4
          (mulf (F := Ideal) (φ := .f32) (subf (F := Ideal) (φ := .f32) (skewT μ) R)
            (broadcastInDim S2x2 ![0, 1] bcast_S2x1_S2x2_0_1 (broadcastInDim S2x1 ![0] bcast_S2_S2x1_0 (scaleT s))))
          shapeCasts_S2x2_S4⟩,
       ⟨S2, mulf (F := Ideal) (φ := .f32)
          (mulf (F := Ideal) (φ := .f32) (shapeCast S2 B shapeCasts_S2x1_S2) (broadcastInDim S2 ![] bcast_S_S2 u))
          (scaleT s)⟩]
      concatenates_S4_S2_S6_d0)
    shapeCasts_S6_S1x6

theorem skewT_00 : skewT μ (ix2 (0 : Fin 2) (0 : Fin 2)) = Cert.Spec.zero := by
  unfold skewT
  rw [catRows_left, rowOf_apply, cat11_left, bcastScalar_apply]
  rfl

theorem skewT_01 : skewT μ (ix2 (0 : Fin 2) (1 : Fin 2)) = -(μ ix0) := by
  unfold skewT
  rw [catRows_left, rowOf_apply, cat11_right, bcastScalar_apply]
  rfl

theorem skewT_10 : skewT μ (ix2 (1 : Fin 2) (0 : Fin 2)) = μ ix0 := by
  unfold skewT
  rw [catRows_right, rowOf_apply, cat11_left, bcastScalar_apply]

theorem skewT_11 : skewT μ (ix2 (1 : Fin 2) (1 : Fin 2)) = Cert.Spec.zero := by
  unfold skewT
  rw [catRows_right, rowOf_apply, cat11_right, bcastScalar_apply]
  rfl

/-- Entry 2 i + j of the row is entry (i, j) of the system matrix times the scale of row i. -/
theorem coefRow_mat (i j : Fin 2) (k : Fin 6) (hk : k.val = 2 * i.val + j.val) :
    coefRow μ u R B s (ix2 (0 : Fin 1) k) = (skewT μ (ix2 i j) - R (ix2 i j)) * s (ix2 i (0 : Fin 1)) := by
  have hk4 : k.val < 4 := by have := i.isLt; have := j.isLt; omega
  unfold coefRow
  rw [rowOf6_apply, cat42_left _ _ k ⟨k.val, hk4⟩ rfl, flatMat_apply _ i j ⟨k.val, hk4⟩ hk]
  show (skewT μ (ix2 i j) - R (ix2 i j))
      * broadcastInDim S2x2 ![0, 1] bcast_S2x1_S2x2_0_1 (broadcastInDim S2x1 ![0] bcast_S2_S2x1_0 (scaleT s)) (ix2 i j) = _
  rw [spreadCol_apply, colOf_apply]
  unfold scaleT
  rw [flatCol_apply]

/-- Entry 4 + i of the row is the shift of row i times the scale of row i. -/
theorem coefRow_shift (i : Fin 2) (k : Fin 6) (hk : i.val + 4 = k.val) :
    coefRow μ u R B s (ix2 (0 : Fin 1) k) = (B (ix2 i (0 : Fin 1)) * u ix0) * s (ix2 i (0 : Fin 1)) := by
  unfold coefRow
  rw [rowOf6_apply, cat42_right _ _ k i hk]
  show (shapeCast S2 B shapeCasts_S2x1_S2 (ix1 i) * broadcastInDim S2 ![] bcast_S_S2 u (ix1 i)) * scaleT s (ix1 i) = _
  unfold scaleT
  rw [flatCol_apply, flatCol_apply, bcastScalar_apply]

end Terms

/-! ## The coefficient row the call finds -/

set_option maxHeartbeats 1600000 in
/-- The coefficient row the call finds is the row the operations build from the five small arguments. -/
theorem coefRow_eq :
    (V m c main_v21 : S1x6.Idx → EReal)
      = coefRow (m ((c : Thread nD τ).loc main_arg2) : S_.Idx → EReal) (m ((c : Thread nD τ).loc main_arg1) : S_.Idx → EReal)
          (m ((c : Thread nD τ).loc main_arg9) : S2x2.Idx → EReal) (m ((c : Thread nD τ).loc main_arg10) : S2x1.Idx → EReal)
          (m ((c : Thread nD τ).loc main_arg11) : S2x1.Idx → EReal) := by
  dsimp only [Gen.V, Gen.hostOps0]
  after_results
  rfl

theorem coef0 :
    (V m c main_v21 : S1x6.Idx → EReal) (ix2 (0 : Fin 1) (0 : Fin 6))
      = Cert.Spec.sysmat (Cert.Spec.scal (m ((c : Thread nD τ).loc main_arg2) : S_.Idx → EReal))
          (Cert.Spec.mat (m ((c : Thread nD τ).loc main_arg9) : S2x2.Idx → EReal)) 0 0
        * Cert.Spec.col (m ((c : Thread nD τ).loc main_arg11) : S2x1.Idx → EReal) 0 := by
  rw [coefRow_eq, coefRow_mat _ _ _ _ _ 0 0 0 rfl, skewT_00]
  rfl

theorem coef1 :
    (V m c main_v21 : S1x6.Idx → EReal) (ix2 (0 : Fin 1) (1 : Fin 6))
      = Cert.Spec.sysmat (Cert.Spec.scal (m ((c : Thread nD τ).loc main_arg2) : S_.Idx → EReal))
          (Cert.Spec.mat (m ((c : Thread nD τ).loc main_arg9) : S2x2.Idx → EReal)) 0 1
        * Cert.Spec.col (m ((c : Thread nD τ).loc main_arg11) : S2x1.Idx → EReal) 0 := by
  rw [coefRow_eq, coefRow_mat _ _ _ _ _ 0 1 1 rfl, skewT_01]
  rfl

theorem coef2 :
    (V m c main_v21 : S1x6.Idx → EReal) (ix2 (0 : Fin 1) (2 : Fin 6))
      = Cert.Spec.sysmat (Cert.Spec.scal (m ((c : Thread nD τ).loc main_arg2) : S_.Idx → EReal))
          (Cert.Spec.mat (m ((c : Thread nD τ).loc main_arg9) : S2x2.Idx → EReal)) 1 0
        * Cert.Spec.col (m ((c : Thread nD τ).loc main_arg11) : S2x1.Idx → EReal) 1 := by
  rw [coefRow_eq, coefRow_mat _ _ _ _ _ 1 0 2 rfl, skewT_10]
  rfl

theorem coef3 :
    (V m c main_v21 : S1x6.Idx → EReal) (ix2 (0 : Fin 1) (3 : Fin 6))
      = Cert.Spec.sysmat (Cert.Spec.scal (m ((c : Thread nD τ).loc main_arg2) : S_.Idx → EReal))
          (Cert.Spec.mat (m ((c : Thread nD τ).loc main_arg9) : S2x2.Idx → EReal)) 1 1
        * Cert.Spec.col (m ((c : Thread nD τ).loc main_arg11) : S2x1.Idx → EReal) 1 := by
  rw [coefRow_eq, coefRow_mat _ _ _ _ _ 1 1 3 rfl, skewT_11]
  rfl

theorem coef4 :
    (V m c main_v21 : S1x6.Idx → EReal) (ix2 (0 : Fin 1) (4 : Fin 6))
      = (Cert.Spec.col (m ((c : Thread nD τ).loc main_arg10) : S2x1.Idx → EReal) 0
          * Cert.Spec.scal (m ((c : Thread nD τ).loc main_arg1) : S_.Idx → EReal))
        * Cert.Spec.col (m ((c : Thread nD τ).loc main_arg11) : S2x1.Idx → EReal) 0 := by
  rw [coefRow_eq, coefRow_shift _ _ _ _ _ 0 4 rfl]
  rfl

theorem coef5 :
    (V m c main_v21 : S1x6.Idx → EReal) (ix2 (0 : Fin 1) (5 : Fin 6))
      = (Cert.Spec.col (m ((c : Thread nD τ).loc main_arg10) : S2x1.Idx → EReal) 1
          * Cert.Spec.scal (m ((c : Thread nD τ).loc main_arg1) : S_.Idx → EReal))
        * Cert.Spec.col (m ((c : Thread nD τ).loc main_arg11) : S2x1.Idx → EReal) 1 := by
  rw [coefRow_eq, coefRow_shift _ _ _ _ _ 1 5 rfl]
  rfl

end Cert.KerHost

end
-- ==== Proof.KerBlocks.lean ====
/-
  From blocks to the array.

  The grid has 128 points; point `t` stages rows `1024·t … 1024·t + 1023` of the batch (both columns) and the whole of
  every weight array and of the row of six coefficients, and writes back rows `1024·t …` of the result.  What it
  writes back is the specification's kernel-side function read through that block; the 128 blocks tile the result
  array, so after the run the array is that function.
-/
import proofs.«136312_j54107997995500_1_alg».proof.Proof.Gen.KernelIdeal.Value
import proofs.«136312_j54107997995500_1_alg».proof.Proof.Spec
import proofs.«136312_j54107997995500_1_alg».proof.Proof.KerPay
import proofs.«136312_j54107997995500_1_alg».proof.Proof.KerHost
import Idealize.ShloMosaic.Lib.ValueIdx
import Idealize.ShloMosaic.Lib.Pipeline.Value

noncomputable section

namespace Cert.KerBlocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The system matrix, the input column, the row scales and the control scalar of a memory. -/
abbrev Am (c : Dev nD) : Fin 2 → Fin 2 → EReal :=
  Cert.Spec.sysmat (Cert.Spec.scal (m ((c : Thread nD τ).loc main_arg2))) (Cert.Spec.mat (m ((c : Thread nD τ).loc main_arg9)))
abbrev Bm (c : Dev nD) : Fin 2 → EReal := Cert.Spec.col (m ((c : Thread nD τ).loc main_arg10))
abbrev sm (c : Dev nD) : Fin 2 → EReal := Cert.Spec.col (m ((c : Thread nD τ).loc main_arg11))
abbrev um (c : Dev nD) : EReal := Cert.Spec.scal (m ((c : Thread nD τ).loc main_arg1))

/-- The result array as the kernel computes it, of the argument arrays of a memory. -/
abbrev res (c : Dev nD) : S131072x2.Idx → EReal :=
  Cert.Spec.resKer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- The printed index maps, decided over the 128 points: the batch window and the result window sit at block
    `(t, 0)`, every other window at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The body's result at an entry of the block, from the six coefficients' values. -/
theorem out_eq (x0 : Vec Ideal S1024x2 .f32) (x1 : Vec Ideal S2x1024 .bf16) (x2 : Vec Ideal S1024 .f32)
    (x3 : Vec Ideal S1024x1024 .bf16) (x4 : Vec Ideal S1024 .f32) (x5 : Vec Ideal S1024x2 .bf16) (x6 : Vec Ideal S2 .f32)
    (x7 : Vec Ideal S1x6 .f32) (A : Fin 2 → Fin 2 → EReal) (B s : Fin 2 → EReal) (u : EReal)
    (h0 : x7 (ix2 0 0) = A 0 0 * s 0) (h1 : x7 (ix2 0 1) = A 0 1 * s 0) (h2 : x7 (ix2 0 2) = A 1 0 * s 1)
    (h3 : x7 (ix2 0 3) = A 1 1 * s 1) (h4 : x7 (ix2 0 4) = (B 0 * u) * s 0) (h5 : x7 (ix2 0 5) = (B 1 * u) * s 1)
    (y : S1024x2.Idx) :
    out0_8 (F := Ideal) x0 x1 x2 x3 x4 x5 x6 x7 y
      = Cert.Spec.mixKer A B s u (Cert.KerPay.blockGrad x0 x1 x2 x3 x4 x5 x6 (y 0)) (y 1) := by
  obtain ⟨r, i, rfl⟩ : ∃ (r : Fin 1024) (i : Fin 2), y = ix2 r i := ⟨y 0, y 1, eq_ix2 y⟩
  match i with
  | ⟨0, _⟩ =>
    refine (Cert.KerPay.out_apply_0 x0 x1 x2 x3 x4 x5 x6 x7 r).trans ?_
    rw [h0, h1, h4]; rfl
  | ⟨1, _⟩ =>
    refine (Cert.KerPay.out_apply_1 x0 x1 x2 x3 x4 x5 x6 x7 r).trans ?_
    rw [h2, h3, h5]; rfl

/-- The window of the six coefficients stages its whole array at every point: its block read at an entry is the
    array there. -/
theorem coef_block (X : S1x6.Idx → EReal) (t : Fin cfg0.N) (u : Fin 1) (k : Fin 6) :
    ((cfg0.win 7).blk t).view.read (Elt Ideal) X (ix2 u k) = X (ix2 u k) := by
  obtain ⟨-, -, -, -, -, -, -, -, -, -, -, e70, e71, -, -⟩ := idx_facts t
  show X (((cfg0.win 7).blk t).view.emb (ix2 u k)) = _
  refine congrArg X (funext fun a => Fin.ext ?_)
  match a with
  | ⟨0, _⟩ => show win0_7.index t (0 : Fin 2) * 1 + 1 * u.val = u.val; omega
  | ⟨1, _⟩ => show win0_7.index t (1 : Fin 2) * 6 + 1 * k.val = k.val; omega

/-- WHAT POINT `t` WRITES BACK is block `t` of the kernel-side function of the argument arrays. -/
theorem flushed_eq (c : Dev nD) (t : Fin cfg0.N) :
    (dats m 0 c).flushed 8 t = ((cfg0.win 8).blk t).view.read (Elt Ideal) (res m c) := by
  rw [Cert.KernelIdeal.Value.flushed8]
  obtain ⟨e00, e01, e10, e11, e20, e30, e31, e40, e50, e51, e60, e70, e71, e80, e81⟩ := idx_facts t
  funext y
  show out0_8 (iblk m c 0 t) (iblk m c 1 t) (iblk m c 2 t) (iblk m c 3 t) (iblk m c 4 t) (iblk m c 5 t) (iblk m c 6 t) (iblk m c 7 t) y
      = res m c (((cfg0.win 8).blk t).view.emb y)
  have w1 : (fun (n : Fin 1024) (k : Fin 2) => iblk m c 1 t (ix2 k n)) = Cert.Spec.mat (m ((c : Thread nD τ).loc main_arg3)) := by
    funext n k
    show V m c main_v23 (((cfg0.win 1).blk t).view.emb (ix2 k n)) = _
    have : ((cfg0.win 1).blk t).view.emb (ix2 k n) = ix2 k n := funext fun a => Fin.ext (by
      match a with
      | ⟨0, _⟩ => show win0_1.index t (0 : Fin 2) * 2 + 1 * k.val = k.val; omega
      | ⟨1, _⟩ => show win0_1.index t (1 : Fin 2) * 1024 + 1 * n.val = n.val; omega)
    rw [this]; exact Cert.KerHost.w1t_apply m c k n
  have w2 : (fun (n k : Fin 1024) => iblk m c 3 t (ix2 k n)) = Cert.Spec.mat (m ((c : Thread nD τ).loc main_arg5)) := by
    funext n k
    show V m c main_v25 (((cfg0.win 3).blk t).view.emb (ix2 k n)) = _
    have : ((cfg0.win 3).blk t).view.emb (ix2 k n) = ix2 k n := funext fun a => Fin.ext (by
      match a with
      | ⟨0, _⟩ => show win0_3.index t (0 : Fin 2) * 1024 + 1 * k.val = k.val; omega
      | ⟨1, _⟩ => show win0_3.index t (1 : Fin 2) * 1024 + 1 * n.val = n.val; omega)
    rw [this]; exact Cert.KerHost.w2t_apply m c k n
  have w3 : (fun (j : Fin 2) (k : Fin 1024) => iblk m c 5 t (ix2 k j)) = Cert.Spec.mat (m ((c : Thread nD τ).loc main_arg7)) := by
    funext j k
    show V m c main_v27 (((cfg0.win 5).blk t).view.emb (ix2 k j)) = _
    have : ((cfg0.win 5).blk t).view.emb (ix2 k j) = ix2 k j := funext fun a => Fin.ext (by
      match a with
      | ⟨0, _⟩ => show win0_5.index t (0 : Fin 2) * 1024 + 1 * k.val = k.val; omega
      | ⟨1, _⟩ => show win0_5.index t (1 : Fin 2) * 2 + 1 * j.val = j.val; omega)
    rw [this]; exact Cert.KerHost.w3t_apply m c k j
  have b1 : (fun (n : Fin 1024) => iblk m c 2 t (ix1 n)) = Cert.Spec.vec (m ((c : Thread nD τ).loc main_arg4)) := by
    funext n
    show V m c main_arg4 (((cfg0.win 2).blk t).view.emb (ix1 n)) = _
    have : ((cfg0.win 2).blk t).view.emb (ix1 n) = ix1 n := funext fun a => Fin.ext (by
      match a with
      | ⟨0, _⟩ => show win0_2.index t (0 : Fin 1) * 1024 + 1 * n.val = n.val; omega)
    rw [this, V_main_arg4]; rfl
  have b2 : (fun (n : Fin 1024) => iblk m c 4 t (ix1 n)) = Cert.Spec.vec (m ((c : Thread nD τ).loc main_arg6)) := by
    funext n
    show V m c main_arg6 (((cfg0.win 4).blk t).view.emb (ix1 n)) = _
    have : ((cfg0.win 4).blk t).view.emb (ix1 n) = ix1 n := funext fun a => Fin.ext (by
      match a with
      | ⟨0, _⟩ => show win0_4.index t (0 : Fin 1) * 1024 + 1 * n.val = n.val; omega)
    rw [this, V_main_arg6]; rfl
  have b3 : (fun (j : Fin 2) => iblk m c 6 t (ix1 j)) = Cert.Spec.vec (m ((c : Thread nD τ).loc main_arg8)) := by
    funext j
    show V m c main_arg8 (((cfg0.win 6).blk t).view.emb (ix1 j)) = _
    have : ((cfg0.win 6).blk t).view.emb (ix1 j) = ix1 j := funext fun a => Fin.ext (by
      match a with
      | ⟨0, _⟩ => show win0_6.index t (0 : Fin 1) * 2 + 1 * j.val = j.val; omega)
    rw [this, V_main_arg8]; rfl
  have hy0 : (y 0).val < 1024 := (y 0).isLt
  have hy1 : (y 1).val < 2 := (y 1).isLt
  have e0 : ((((cfg0.win 8).blk t).view.emb y) 0).val = t.val * 1024 + (y 0).val := by
    show win0_8.index t (0 : Fin 2) * 1024 + 1 * (y 0).val = _; omega
  have e1 : (((cfg0.win 8).blk t).view.emb y) 1 = y 1 := Fin.ext (by
    show win0_8.index t (1 : Fin 2) * 2 + 1 * (y 1).val = (y 1).val; omega)
  have yr : (fun (k : Fin 2) => iblk m c 0 t (ix2 (y 0) k))
      = Cert.Spec.mat (m ((c : Thread nD τ).loc main_arg0)) ((((cfg0.win 8).blk t).view.emb y) 0) := by
    funext k
    show V m c main_arg0 (((cfg0.win 0).blk t).view.emb (ix2 (y 0) k)) = _
    have : ((cfg0.win 0).blk t).view.emb (ix2 (y 0) k) = ix2 ((((cfg0.win 8).blk t).view.emb y) 0) k := funext fun a => Fin.ext (by
      match a with
      | ⟨0, _⟩ => show win0_0.index t (0 : Fin 2) * 1024 + 1 * (y 0).val = ((((cfg0.win 8).blk t).view.emb y) 0).val; omega
      | ⟨1, _⟩ => show win0_0.index t (1 : Fin 2) * 2 + 1 * k.val = k.val; omega)
    rw [this, V_main_arg0]; rfl
  have hc : ∀ (u : Fin 1) (k : Fin 6), iblk m c 7 t (ix2 u k) = (V m c main_v21 : S1x6.Idx → EReal) (ix2 u k) :=
    fun u k => coef_block (V m c main_v21) t u k
  refine (out_eq (iblk m c 0 t) (iblk m c 1 t) (iblk m c 2 t) (iblk m c 3 t) (iblk m c 4 t) (iblk m c 5 t) (iblk m c 6 t) (iblk m c 7 t) (Am m c) (Bm m c) (sm m c) (um m c) ((hc 0 0).trans (Cert.KerHost.coef0 m c)) ((hc 0 1).trans (Cert.KerHost.coef1 m c))
    ((hc 0 2).trans (Cert.KerHost.coef2 m c)) ((hc 0 3).trans (Cert.KerHost.coef3 m c)) ((hc 0 4).trans (Cert.KerHost.coef4 m c)) ((hc 0 5).trans (Cert.KerHost.coef5 m c)) y).trans ?_
  have eg : Cert.KerPay.blockGrad (iblk m c 0 t) (iblk m c 1 t) (iblk m c 2 t) (iblk m c 3 t) (iblk m c 4 t) (iblk m c 5 t) (iblk m c 6 t) (y 0)
      = Cert.Spec.grad (m ((c : Thread nD τ).loc main_arg0)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) ((((cfg0.win 8).blk t).view.emb y) 0) := by
    unfold Cert.KerPay.blockGrad Cert.Spec.grad
    rw [w1, w2, w3, b1, b2, b3, yr]
  rw [eg, ← e1]
  rfl

/-- An index of the result array is in point `t`'s block iff each coordinate is in the block's range on its axis. -/
theorem mem_blk (t : Fin cfg0.N) (i : S131072x2.Idx) :
    i ∈ ((cfg0.win 8).blk t).view.set ↔ ∀ a : Fin 2, win0_8.index t a * S1024x2.size a ≤ (i a).val
      ∧ (i a).val < win0_8.index t a * S1024x2.size a + S1024x2.size a := by
  show i ∈ ((View.whole main_v28).slice (win0_8.rect t)).set ↔ _
  rw [View.set_slice_whole, Rect.mem_set_unit]
  exact Iff.rfl

/-- The 128 blocks of 1024 rows tile the 131072 rows: row `b` is in the block of point `b / 1024`. -/
theorem cover (i : S131072x2.Idx) :
    ∃ t : Fin cfg0.N, (cfg0.win 8).flush t = true ∧ i ∈ ((cfg0.win 8).blk t).view.set := by
  have hi0 : (i 0).val < 131072 := (i 0).isLt
  have hi1 : (i 1).val < 2 := (i 1).isLt
  have ht : (i 0).val / 1024 < 128 := by omega
  obtain ⟨-, -, -, -, -, -, -, -, -, -, -, -, -, e80, e81⟩ := idx_facts ⟨(i 0).val / 1024, ht⟩
  refine ⟨⟨(i 0).val / 1024, ht⟩, flush0_8 _, ?_⟩
  rw [mem_blk]
  intro a
  match a with
  | ⟨0, _⟩ =>
    show win0_8.index ⟨(i 0).val / 1024, ht⟩ (0 : Fin 2) * 1024 ≤ (i 0).val
      ∧ (i 0).val < win0_8.index ⟨(i 0).val / 1024, ht⟩ (0 : Fin 2) * 1024 + 1024
    have : win0_8.index ⟨(i 0).val / 1024, ht⟩ (0 : Fin 2) = (i 0).val / 1024 := e80
    omega
  | ⟨1, _⟩ =>
    show win0_8.index ⟨(i 0).val / 1024, ht⟩ (1 : Fin 2) * 2 ≤ (i 1).val
      ∧ (i 1).val < win0_8.index ⟨(i 0).val / 1024, ht⟩ (1 : Fin 2) * 2 + 2
    omega

/-- THE ARRAY after the run: the kernel-side function of the argument arrays. -/
theorem final (c : Dev nD) : (dats m 0 c).arrAt 8 cfg0.N = res m c :=
  (dats m 0 c).arrAt_eq_of_cover 8 (res m c) (fun t _ => flushed_eq m c t) cover

/-- The kernel's run, read: the result array holds the kernel-side function of the argument arrays, which end
    unchanged. -/
theorem run : θ_run defs (onTc (τ := τ) (main (F := Ideal))) ⟨m, fun _ => 0, ρ⟩ fun r => ∀ c : Dev nD,
      r.2.mem ((c : Thread nD τ).loc main_v28) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Cert.KernelIdeal.Value.run_blocks m ρ)

end Cert.KerBlocks

end
-- ==== Proof.FiniteInputs.lean ====
/-
  Finiteness of the inputs, read off the precondition. The precondition is the conjunction, over the twelve float
  argument arrays, of "every entry x has |x| < +∞", each conjunct a reduction by `and` of the elementwise comparison of
  |x| against the constant +∞. If the conjunction is 1 then each reduction is 1, so each comparison is 1 at every index,
  and an extended real with max x (-x) < ⊤ is neither ⊤ nor ⊥: it is a real number.
-/
import proofs.«136312_j54107997995500_1_alg».proof.Defs
import proofs.«136312_j54107997995500_1_alg».proof.Proof.Gen.Pre_finite_inputs
import Idealize.ShloMosaic.Lib.ReduceAll
import Idealize.ShloMosaic.Lib.ValueIdx

noncomputable section

namespace Cert.FiniteInputs

open Idealize.ShloMosaic

/-- The scalar shape has exactly one index. -/
instance subsingleton_scalar_idx : Subsingleton Cert.Pre_finite_inputs.S_.Idx :=
  ⟨fun a b => funext fun d => d.elim0⟩

/-- An extended real whose absolute value compares strictly below `+∞` (the value of the word `0x7F800000`) is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => exact absurd h (by simp [FloatOps.cmpf, FloatOps.hostAbsf, Ideal.cmp])
  | coe r => exact ⟨r, rfl⟩
  | top => exact absurd h (by simp [FloatOps.cmpf, FloatOps.hostAbsf, Ideal.cmp])

/-- An array all of whose entries pass the test `|x| < +∞`, the conjunction of the tests being 1, has only real entries. -/
theorem real_of_all {s : Shape} {axes : List (Fin s.rank)} (x c : FVec Ideal s .f32)
    (hc : ∀ i, c i = Ideal.ofBits .f32 0x7F800000#32) (init : IVec Cert.Pre_finite_inputs.S_ 1)
    (hr : s.ReducesTo axes Cert.Pre_finite_inputs.S_) (hu : 0 < Cert.Pre_finite_inputs.S_.numel)
    (e : Host.reduce IntOp.andi (cmpf .olt (Host.absf x) c) init hr hu ValueIdx.ix0 = 1#1) (i : s.Idx) :
    ∃ r : ℝ, x i = (r : EReal) := by
  have h := Host.reduce_andi_all _ init hr hu ValueIdx.ix0 e i
  rw [ValueIdx.cmpf_apply, hc i] at h
  exact real_of_abs_lt_inf (x i) h

/-- The conjunction of two one-bit arrays at an index is the conjunction of the bits. -/
theorem andi_apply {s : Shape} (a b : IVec s 1) (i : s.Idx) : andi a b i = IntOp.andi (a i) (b i) := rfl

open Cert.Pre_finite_inputs in
/-- The precondition: if the finiteness predicate is 1 at the twelve arrays, every entry of every array is a real number. -/
theorem real_of_fn [Cert.Pre_finite_inputs.Facts]
    (x0 : FVec Ideal S131072x2 .f32) (x1 x2 : FVec Ideal S_ .f32) (x3 : FVec Ideal S1024x2 .f32)
    (x4 : FVec Ideal S1024 .f32) (x5 : FVec Ideal S1024x1024 .f32) (x6 : FVec Ideal S1024 .f32)
    (x7 : FVec Ideal S2x1024 .f32) (x8 : FVec Ideal S2 .f32) (x9 : FVec Ideal S2x2 .f32)
    (x10 x11 : FVec Ideal S2x1 .f32)
    (h : Cert.Pre_finite_inputs.fn (F := Ideal) x0 x1 x2 x3 x4 x5 x6 x7 x8 x9 x10 x11 = (fun _ => 1#1)) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) ∧ (∀ i, ∃ r : ℝ, x5 i = (r : EReal))
    ∧ (∀ i, ∃ r : ℝ, x6 i = (r : EReal)) ∧ (∀ i, ∃ r : ℝ, x7 i = (r : EReal)) ∧ (∀ i, ∃ r : ℝ, x8 i = (r : EReal))
    ∧ (∀ i, ∃ r : ℝ, x9 i = (r : EReal)) ∧ (∀ i, ∃ r : ℝ, x10 i = (r : EReal)) ∧ (∀ i, ∃ r : ℝ, x11 i = (r : EReal)) := by
  have h0 := congrFun h ValueIdx.ix0
  dsimp only [fn, fn_part1, fn_part2, fn_part3] at h0
  simp only [andi_apply, IntOp.andi_eq_one] at h0
  obtain ⟨⟨⟨⟨⟨⟨⟨⟨⟨⟨⟨e0, e1⟩, e2⟩, e3⟩, e4⟩, e5⟩, e6⟩, e7⟩, e8⟩, e9⟩, e10⟩, e11⟩ := h0
  exact ⟨real_of_all x0 _ (fun _ => rfl) _ _ _ e0, real_of_all x1 _ (fun _ => rfl) _ _ _ e1,
    real_of_all x2 _ (fun _ => rfl) _ _ _ e2, real_of_all x3 _ (fun _ => rfl) _ _ _ e3,
    real_of_all x4 _ (fun _ => rfl) _ _ _ e4, real_of_all x5 _ (fun _ => rfl) _ _ _ e5,
    real_of_all x6 _ (fun _ => rfl) _ _ _ e6, real_of_all x7 _ (fun _ => rfl) _ _ _ e7,
    real_of_all x8 _ (fun _ => rfl) _ _ _ e8, real_of_all x9 _ (fun _ => rfl) _ _ _ e9,
    real_of_all x10 _ (fun _ => rfl) _ _ _ e10, real_of_all x11 _ (fun _ => rfl) _ _ _ e11⟩

open Idealize.SL.Sem in
/-- The memory form: under the precondition every entry of every argument array of the idealized kernel, on every device,
    is a real number. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal))
    ∧ (∀ i, ∃ r : ℝ, m ((c.tc : Thread Cert.KernelIdeal.nD Cert.KernelIdeal.τ).loc Cert.KernelIdeal.main_arg10) i = (r : EReal))
    ∧ (∀ i, ∃ r : ℝ, m ((c.tc : Thread Cert.KernelIdeal.nD Cert.KernelIdeal.τ).loc Cert.KernelIdeal.main_arg11) i = (r : EReal)) :=
  real_of_fn _ _ _ _ _ _ _ _ _ _ _ _ (h c)

end Cert.FiniteInputs

end
-- ==== Proof.lean ====
/-
  A multilayer perceptron feeding one step of a port-Hamiltonian system, kernel against reference.

  Both programs send each of the 131072 rows `y` of the batch through three dense layers (2 → 1024 → 1024 → 2, a
  rectified linear unit after the first two) to get `g = ∇H(y)`, and return, for `i = 0, 1`,

      dx i = ((J − R) g + B · u) i · s i ,      J = [[0, −μ], [μ, 0]] .

  The reference computes exactly this, as matrix products over the whole batch.  The kernel is handed the weights
  transposed and six coefficients `(J − R) i j · s i`, `(B i · u) · s i` computed beforehand, tiles the batch into 128
  blocks of 1024 rows, and forms `g 0 · c i 0 + g 1 · c i 1 + d i` per row.  At the ideal values the three layers are
  the same sums on both sides; the last step differs by distributing the row scale over the sum, which holds for
  real numbers and is where the finiteness of the inputs is used.

  The modules: `Spec` (the mathematics and the law on real entries), `RefIsSpec` (the reference's result is the
  specification's reference-side array), `KerPay` (the kernel body's arithmetic at an entry of a block), `KerHost`
  (what the kernel's preparatory operations hand the body: the transposed weights and the six coefficients),
  `KerBlocks` (the 128 blocks tile the result array, which therefore is the specification's kernel-side array),
  `FiniteInputs` (the precondition makes every input entry a real number).
-/
import proofs.«136312_j54107997995500_1_alg».proof.Defs
import proofs.«136312_j54107997995500_1_alg».proof.Proof.Gen.Kernel
import proofs.«136312_j54107997995500_1_alg».proof.Proof.Gen.Kernel.Skeleton
import proofs.«136312_j54107997995500_1_alg».proof.Proof.Gen.Kernel.Launch
import proofs.«136312_j54107997995500_1_alg».proof.Proof.Gen.Kernel.Points
import proofs.«136312_j54107997995500_1_alg».proof.Proof.Gen.Kernel.Frame
import proofs.«136312_j54107997995500_1_alg».proof.Proof.Gen.KernelIdeal
import proofs.«136312_j54107997995500_1_alg».proof.Proof.Gen.KernelIdeal.Skeleton
import proofs.«136312_j54107997995500_1_alg».proof.Proof.Gen.KernelIdeal.Launch
import proofs.«136312_j54107997995500_1_alg».proof.Proof.Gen.KernelIdeal.Points
import proofs.«136312_j54107997995500_1_alg».proof.Proof.Gen.KernelIdeal.Frame
import proofs.«136312_j54107997995500_1_alg».proof.Proof.Gen.ReferenceIdeal
import proofs.«136312_j54107997995500_1_alg».proof.Proof.Gen.Pre_finite_inputs
import proofs.«136312_j54107997995500_1_alg».proof.Proof.Gen.KernelIdeal.Value
import proofs.«136312_j54107997995500_1_alg».proof.Proof.Gen.ReferenceIdeal.Run
import proofs.«136312_j54107997995500_1_alg».proof.Proof.Gen.ReferenceIdeal.Read
import proofs.«136312_j54107997995500_1_alg».proof.Proof.Spec
import proofs.«136312_j54107997995500_1_alg».proof.Proof.RefIsSpec
import proofs.«136312_j54107997995500_1_alg».proof.Proof.KerBlocks
import proofs.«136312_j54107997995500_1_alg».proof.Proof.FiniteInputs
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for the ideal reading. -/
theorem preserves : Cert.preserves_Kernel_KernelIdeal := trivial

/-- From memories agreeing on the arguments, the kernel's result array is the kernel-side function of them, the
    reference's the reference-side function, and with finite inputs the two are one array. -/
theorem algebraic : Cert.algebraic_KernelIdeal_ReferenceIdeal := by
  intro m ρ m' ρ' hpre hagree
  refine ⟨fun c => Cert.KerBlocks.res m c, Cert.KerBlocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  obtain ⟨f0, f1, f2, f3, f4, f5, f6, f7, f8, f9, f10, f11⟩ := Cert.FiniteInputs.real_of_pre m hpre c
  rw [Cert.ReferenceIdeal.Read.val_main_v36_eq, Cert.RefIsSpec.ref_is_spec, a0, a1, a2, a3, a4, a5, a6, a7, a8, a9, a10, a11]
  exact Cert.Spec.resRef_eq_resKer _ _ _ _ _ _ _ _ _ _ _ _ f0 f1 f2 f3 f4 f5 f6 f7 f8 f9 f10 f11

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
